-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S393216 : Shape := ⟨1, ![393216]⟩
abbrev S512x256 : Shape := ⟨2, ![512, 256]⟩
abbrev S256x128 : Shape := ⟨2, ![256, 128]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S393216 : S_.BroadcastsInDim S393216 (![] : Fin 0 → Fin S393216.rank)
  reducesTo_S393216_S_d0 : S393216.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg6 : FVec F S256x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S12288x512 .f32) (main_arg1 : IVec S393216 32) (main_arg2 : IVec S393216 32) (main_arg3 : FVec F S393216 .f32) (main_arg4 : FVec F S512x256 .f32) (main_arg5 : FVec F S256x128 .f32) (main_arg6 : FVec F S256x128 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S393216 .f32 := Host.absf main_arg3
  let main_cst_0 : FVec F S_ .f32 := constant S_ .f32 0x7F800000#32
  let main_v5 : FVec F S393216 .f32 := broadcastInDim S393216 ![] bcast_S_S393216 main_cst_0
  let main_v6 : IVec S393216 1 := cmpf .olt main_v4 main_v5
  let main_c_1 : IVec S_ 1 := constantI S_ 1 1#1
  let main_v7 : IVec S_ 1 := (fun x v => Host.reduce IntOp.andi x v reducesTo_S393216_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S12288x512 : Shape := ⟨2, ![12288, 512]⟩
abbrev S393216 : Shape := ⟨1, ![393216]⟩
abbrev S512x256 : Shape := ⟨2, ![512, 256]⟩
abbrev S256x128 : Shape := ⟨2, ![256, 128]⟩
abbrev S12288x256 : Shape := ⟨2, ![12288, 256]⟩
abbrev S1536x512 : Shape := ⟨2, ![1536, 512]⟩
abbrev S1536x256 : Shape := ⟨2, ![1536, 256]⟩
abbrev S393216x1 : Shape := ⟨2, ![393216, 1]⟩
abbrev S_ : Shape := ⟨0, ![]⟩
abbrev S393216x256 : Shape := ⟨2, ![393216, 256]⟩
abbrev S12288x128 : Shape := ⟨2, ![12288, 128]⟩
abbrev S1536x128 : Shape := ⟨2, ![1536, 128]⟩
abbrev S393216x128 : Shape := ⟨2, ![393216, 128]⟩
abbrev S12288x12288 : Shape := ⟨2, ![12288, 12288]⟩
abbrev S1024x128 : Shape := ⟨2, ![1024, 128]⟩
abbrev S1024x1024 : Shape := ⟨2, ![1024, 1024]⟩

abbrev nBuf : Space → Nat
  | .hbm => 62
  | .vmem => 21
  | .smem => 0
  | _ => 0

abbrev bufTy : (tb : Table) → Fin (tcTables nBuf tb) → BufTy
  | .hbm, ⟨0, _⟩ => ⟨S12288x512, .f32⟩
  | .hbm, ⟨1, _⟩ => ⟨S393216, .i32⟩
  | .hbm, ⟨2, _⟩ => ⟨S393216, .i32⟩
  | .hbm, ⟨3, _⟩ => ⟨S393216, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S12288x256, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x256, .f32⟩
  | .hbm, ⟨18, _⟩ => ⟨S393216x256, .f32⟩
  | .hbm, ⟨19, _⟩ => ⟨S393216x256, .f32⟩
  | .hbm, ⟨20, _⟩ => ⟨S_, .f32⟩
  | .hbm, ⟨21, _⟩ => ⟨S12288x256, .f32⟩
  | .hbm, ⟨22, _⟩ => ⟨S393216x1, .i32⟩
  | .hbm, ⟨23, _⟩ => ⟨S12288x256, .f32⟩
  | .hbm, ⟨24, _⟩ => ⟨S_, .f32⟩
  | .hbm, ⟨25, _⟩ => ⟨S12288x256, .f32⟩
  | .hbm, ⟨26, _⟩ => ⟨S12288x256, .f32⟩
  | .hbm, ⟨27, _⟩ => ⟨S12288x128, .f32⟩
  | .hbm, ⟨28, _⟩ => ⟨S393216x1, .f32⟩
  | .hbm, ⟨29, _⟩ => ⟨S_, .i32⟩
  | .hbm, ⟨30, _⟩ => ⟨S393216, .i32⟩
  | .hbm, ⟨31, _⟩ => ⟨S393216, .i1⟩
  | .hbm, ⟨32, _⟩ => ⟨S_, .i32⟩
  | .hbm, ⟨33, _⟩ => ⟨S393216, .i32⟩
  | .hbm, ⟨34, _⟩ => ⟨S393216, .i32⟩
  | .hbm, ⟨35, _⟩ => ⟨S393216, .i32⟩
  | .hbm, ⟨36, _⟩ => ⟨S393216x1, .i32⟩
  | .hbm, ⟨37, _⟩ => ⟨S393216x128, .f32⟩
  | .hbm, ⟨38, _⟩ => ⟨S393216x128, .f32⟩
  | .hbm, ⟨39, _⟩ => ⟨S393216x128, .f32⟩
  | .hbm, ⟨40, _⟩ => ⟨S_, .f32⟩
  | .hbm, ⟨41, _⟩ => ⟨S12288x128, .f32⟩
  | .hbm, ⟨42, _⟩ => ⟨S393216x1, .i32⟩
  | .hbm, ⟨43, _⟩ => ⟨S12288x128, .f32⟩
  | .hbm, ⟨44, _⟩ => ⟨S12288x128, .f32⟩
  | .hbm, ⟨45, _⟩ => ⟨S393216x1, .f32⟩
  | .hbm, ⟨46, _⟩ => ⟨S_, .i32⟩
  | .hbm, ⟨47, _⟩ => ⟨S393216, .i32⟩
  | .hbm, ⟨48, _⟩ => ⟨S393216, .i1⟩
  | .hbm, ⟨49, _⟩ => ⟨S_, .i32⟩
  | .hbm, ⟨50, _⟩ => ⟨S393216, .i32⟩
  | .hbm, ⟨51, _⟩ => ⟨S393216, .i32⟩
  | .hbm, ⟨52, _⟩ => ⟨S393216, .i32⟩
  | .hbm, ⟨53, _⟩ => ⟨S393216x1, .i32⟩
  | .hbm, ⟨54, _⟩ => ⟨S393216x128, .f32⟩
  | .hbm, ⟨55, _⟩ => ⟨S393216x128, .f32⟩
  | .hbm, ⟨56, _⟩ => ⟨S393216x128, .f32⟩
  | .hbm, ⟨57, _⟩ => ⟨S_, .f32⟩
  | .hbm, ⟨58, _⟩ => ⟨S12288x128, .f32⟩
  | .hbm, ⟨59, _⟩ => ⟨S393216x1, .i32⟩
  | .hbm, ⟨60, _⟩ => ⟨S12288x128, .f32⟩
  | .hbm, ⟨61, _⟩ => ⟨S12288x12288, .f32⟩
  | .local _ .vmem, ⟨0, _⟩ => ⟨S1536x512, .f32⟩
  | .local _ .vmem, ⟨1, _⟩ => ⟨S1536x512, .f32⟩
  | .local _ .vmem, ⟨2, _⟩ => ⟨S512x256, .f32⟩
  | .local _ .vmem, ⟨3, _⟩ => ⟨S1536x256, .f32⟩
  | .local _ .vmem, ⟨4, _⟩ => ⟨S1536x256, .f32⟩
  | .local _ .vmem, ⟨5, _⟩ => ⟨S1536x256, .f32⟩
  | .local _ .vmem, ⟨6, _⟩ => ⟨S1536x256, .f32⟩
  | .local _ .vmem, ⟨7, _⟩ => ⟨S256x128, .f32⟩
  | .local _ .vmem, ⟨8, _⟩ => ⟨S1536x128, .f32⟩
  | .local _ .vmem, ⟨9, _⟩ => ⟨S1536x128, .f32⟩
  | .local _ .vmem, ⟨10, _⟩ => ⟨S1536x256, .f32⟩
  | .local _ .vmem, ⟨11, _⟩ => ⟨S1536x256, .f32⟩
  | .local _ .vmem, ⟨12, _⟩ => ⟨S256x128, .f32⟩
  | .local _ .vmem, ⟨13, _⟩ => ⟨S1536x128, .f32⟩
  | .local _ .vmem, ⟨14, _⟩ => ⟨S1536x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x1024, .f32⟩
  | .local _ .vmem, ⟨20, _⟩ => ⟨S1024x1024, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1536x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1536x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1536x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1536x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![12, 12], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  inb_S1536x512_S1536x512_0_0 : ∀ a, (![0, 0] : Fin 2 → Nat) a + S1536x512.size a ≤ S1536x512.size a
  h_S1536x512 : 0 < S1536x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1536x256_S1536x256_0_0 : ∀ a, (![0, 0] : Fin 2 → Nat) a + S1536x256.size a ≤ S1536x256.size a
  h_S1536x256 : 0 < S1536x256.numel
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x256_0_1 : S393216x1.BroadcastsInDim S393216x256 (![0, 1] : Fin 2 → Fin S393216x256.rank)
  bcast_S_S12288x256 : S_.BroadcastsInDim S12288x256 (![] : Fin 0 → Fin S12288x256.rank)
  shapeCasts_S1536x256_S1536x256 : S1536x256.ShapeCasts S1536x256
  inb_S256x128_S256x128_0_0 : ∀ a, (![0, 0] : Fin 2 → Nat) a + S256x128.size a ≤ S256x128.size a
  h_S256x128 : 0 < S256x128.numel
  inb_S1536x128_S1536x128_0_0 : ∀ a, (![0, 0] : Fin 2 → Nat) a + S1536x128.size a ≤ S1536x128.size a
  h_S1536x128 : 0 < S1536x128.numel
  bcast_S393216x1_S393216x128_0_1 : S393216x1.BroadcastsInDim S393216x128 (![0, 1] : Fin 2 → Fin S393216x128.rank)
  bcast_S_S12288x128 : S_.BroadcastsInDim S12288x128 (![] : Fin 0 → Fin S12288x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  dot_S1536x512_S512x256_S1536x256_1_0_0_1_n_n_wf : DotDims.WF S1536x512 S512x256 S1536x256 [1] [0] [0] [1] [] []
  gather_S12288x256_S393216x1_S393216x256_1_0_n_n_0_1_1256_wf : GatherDims.WF S12288x256 S393216x1 S393216x256 [1] [0] [] [0] [] 1 ![1, 256]
  scatter_S12288x256_S393216x1_S393216x256_1_0_0_1_wf : ScatterDims.WF S12288x256 S393216x1 S393216x256 [1] [0] [0] 1
  dot_S1536x256_S256x128_S1536x128_1_0_0_1_n_n_wf : DotDims.WF S1536x256 S256x128 S1536x128 [1] [0] [0] [1] [] []
  gather_S12288x128_S393216x1_S393216x128_1_0_n_n_0_1_1128_wf : GatherDims.WF S12288x128 S393216x1 S393216x128 [1] [0] [] [0] [] 1 ![1, 128]
  scatter_S12288x128_S393216x1_S393216x128_1_0_0_1_wf : ScatterDims.WF S12288x128 S393216x1 S393216x128 [1] [0] [0] 1
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x512.size a ≤ S12288x512.size a
  hwx0_0 : ∀ i : grid0.Coords, EltTy.bits .f32 = 32 ∨ (Rect.block (s := S12288x512) S1536x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x256.size a ≤ S12288x256.size a
  hwx0_2 : ∀ i : grid0.Coords, EltTy.bits .f32 = 32 ∨ (Rect.block (s := S12288x256) S1536x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x256.size a ≤ S12288x256.size a
  hwx1_0 : ∀ i : grid1.Coords, EltTy.bits .f32 = 32 ∨ (Rect.block (s := S12288x256) S1536x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1536x128.size a ≤ S12288x128.size a
  hwx1_2 : ∀ i : grid1.Coords, EltTy.bits .f32 = 32 ∨ (Rect.block (s := S12288x128) S1536x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1536x256.size a ≤ S12288x256.size a
  hwx2_0 : ∀ i : grid2.Coords, EltTy.bits .f32 = 32 ∨ (Rect.block (s := S12288x256) S1536x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1536x128.size a ≤ S12288x128.size a
  hwx2_2 : ∀ i : grid2.Coords, EltTy.bits .f32 = 32 ∨ (Rect.block (s := S12288x128) S1536x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S12288x128.size a
  hwx3_0 : ∀ i : grid3.Coords, EltTy.bits .f32 = 32 ∨ (Rect.block (s := S12288x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S12288x128.size a
  hwx3_1 : ∀ i : grid3.Coords, EltTy.bits .f32 = 32 ∨ (Rect.block (s := S12288x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S12288x12288.size a
  hwx3_2 : ∀ i : grid3.Coords, EltTy.bits .f32 = 32 ∨ (Rect.block (s := S12288x12288) S1024x1024.size (cc3_transform_2 i) (hinb3_2 i)).WholeWords (EltTy.packing .f32)

variable [Facts₀]

def dot_S1536x512_S512x256_S1536x256_1_0_0_1_n_n : DotDims S1536x512 S512x256 S1536x256 where
  lhsContracting := [1]
  rhsContracting := [0]
  lhsNonContracting := [0]
  rhsNonContracting := [1]
  lhsBatch := []
  rhsBatch := []
  wf := dot_S1536x512_S512x256_S1536x256_1_0_0_1_n_n_wf
def gather_S12288x256_S393216x1_S393216x256_1_0_n_n_0_1_1256 : GatherDims S12288x256 S393216x1 S393216x256 where
  offsetDims := [1]
  collapsedSliceDims := [0]
  operandBatchingDims := []
  startIndicesBatchingDims := []
  startIndexMap := [0]
  indexVectorDim := 1
  sliceSizes := ![1, 256]
  wf := gather_S12288x256_S393216x1_S393216x256_1_0_n_n_0_1_1256_wf
def scatter_S12288x256_S393216x1_S393216x256_1_0_0_1 : ScatterDims S12288x256 S393216x1 S393216x256 where
  updateWindowDims := [1]
  insertedWindowDims := [0]
  scatterDimsToOperandDims := [0]
  indexVectorDim := 1
  wf := scatter_S12288x256_S393216x1_S393216x256_1_0_0_1_wf
def dot_S1536x256_S256x128_S1536x128_1_0_0_1_n_n : DotDims S1536x256 S256x128 S1536x128 where
  lhsContracting := [1]
  rhsContracting := [0]
  lhsNonContracting := [0]
  rhsNonContracting := [1]
  lhsBatch := []
  rhsBatch := []
  wf := dot_S1536x256_S256x128_S1536x128_1_0_0_1_n_n_wf
def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def scatter_S12288x128_S393216x1_S393216x128_1_0_0_1 : ScatterDims S12288x128 S393216x1 S393216x128 where
  updateWindowDims := [1]
  insertedWindowDims := [0]
  scatterDimsToOperandDims := [0]
  indexVectorDim := 1
  wf := scatter_S12288x128_S393216x1_S393216x128_1_0_0_1_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1536x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1536x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S1536x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1536x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S1536x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1536x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S12288x512 : Shape := ⟨2, ![12288, 512]⟩
abbrev S393216 : Shape := ⟨1, ![393216]⟩
abbrev S512x256 : Shape := ⟨2, ![512, 256]⟩
abbrev S256x128 : Shape := ⟨2, ![256, 128]⟩
abbrev S12288x256 : Shape := ⟨2, ![12288, 256]⟩
abbrev S393216x1 : Shape := ⟨2, ![393216, 1]⟩
abbrev S_ : Shape := ⟨0, ![]⟩
abbrev S393216x256 : Shape := ⟨2, ![393216, 256]⟩
abbrev S12288x128 : Shape := ⟨2, ![12288, 128]⟩
abbrev S393216x128 : Shape := ⟨2, ![393216, 128]⟩
abbrev S128x12288 : Shape := ⟨2, ![128, 12288]⟩
abbrev S12288x12288 : Shape := ⟨2, ![12288, 12288]⟩

abbrev nBuf : Space → Nat
  | .hbm => 71
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S393216, .i32⟩
  | .hbm, ⟨2, _⟩ => ⟨S393216, .i32⟩
  | .hbm, ⟨3, _⟩ => ⟨S393216, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S12288x256, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x256, .f32⟩
  | .hbm, ⟨18, _⟩ => ⟨S393216x256, .f32⟩
  | .hbm, ⟨19, _⟩ => ⟨S393216x256, .f32⟩
  | .hbm, ⟨20, _⟩ => ⟨S_, .f32⟩
  | .hbm, ⟨21, _⟩ => ⟨S12288x256, .f32⟩
  | .hbm, ⟨22, _⟩ => ⟨S393216x1, .i32⟩
  | .hbm, ⟨23, _⟩ => ⟨S12288x256, .f32⟩
  | .hbm, ⟨24, _⟩ => ⟨S_, .f32⟩
  | .hbm, ⟨25, _⟩ => ⟨S12288x256, .f32⟩
  | .hbm, ⟨26, _⟩ => ⟨S12288x256, .f32⟩
  | .hbm, ⟨27, _⟩ => ⟨S12288x128, .f32⟩
  | .hbm, ⟨28, _⟩ => ⟨S393216x1, .f32⟩
  | .hbm, ⟨29, _⟩ => ⟨S_, .i32⟩
  | .hbm, ⟨30, _⟩ => ⟨S393216, .i32⟩
  | .hbm, ⟨31, _⟩ => ⟨S393216, .i1⟩
  | .hbm, ⟨32, _⟩ => ⟨S_, .i32⟩
  | .hbm, ⟨33, _⟩ => ⟨S393216, .i32⟩
  | .hbm, ⟨34, _⟩ => ⟨S393216, .i32⟩
  | .hbm, ⟨35, _⟩ => ⟨S393216, .i32⟩
  | .hbm, ⟨36, _⟩ => ⟨S393216x1, .i32⟩
  | .hbm, ⟨37, _⟩ => ⟨S393216x128, .f32⟩
  | .hbm, ⟨38, _⟩ => ⟨S393216x128, .f32⟩
  | .hbm, ⟨39, _⟩ => ⟨S393216x128, .f32⟩
  | .hbm, ⟨40, _⟩ => ⟨S_, .f32⟩
  | .hbm, ⟨41, _⟩ => ⟨S12288x128, .f32⟩
  | .hbm, ⟨42, _⟩ => ⟨S393216x1, .i32⟩
  | .hbm, ⟨43, _⟩ => ⟨S12288x128, .f32⟩
  | .hbm, ⟨44, _⟩ => ⟨S12288x128, .f32⟩
  | .hbm, ⟨45, _⟩ => ⟨S393216x1, .f32⟩
  | .hbm, ⟨46, _⟩ => ⟨S_, .i32⟩
  | .hbm, ⟨47, _⟩ => ⟨S393216, .i32⟩
  | .hbm, ⟨48, _⟩ => ⟨S393216, .i1⟩
  | .hbm, ⟨49, _⟩ => ⟨S_, .i32⟩
  | .hbm, ⟨50, _⟩ => ⟨S393216, .i32⟩
  | .hbm, ⟨51, _⟩ => ⟨S393216, .i32⟩
  | .hbm, ⟨52, _⟩ => ⟨S393216, .i32⟩
  | .hbm, ⟨53, _⟩ => ⟨S393216x1, .i32⟩
  | .hbm, ⟨54, _⟩ => ⟨S393216x128, .f32⟩
  | .hbm, ⟨55, _⟩ => ⟨S393216x128, .f32⟩
  | .hbm, ⟨56, _⟩ => ⟨S393216x128, .f32⟩
  | .hbm, ⟨57, _⟩ => ⟨S_, .f32⟩
  | .hbm, ⟨58, _⟩ => ⟨S12288x128, .f32⟩
  | .hbm, ⟨59, _⟩ => ⟨S393216x1, .i32⟩
  | .hbm, ⟨60, _⟩ => ⟨S12288x128, .f32⟩
  | .hbm, ⟨61, _⟩ => ⟨S128x12288, .f32⟩
  | .hbm, ⟨62, _⟩ => ⟨S12288x12288, .f32⟩
  | .hbm, ⟨63, _⟩ => ⟨S12288x12288, .f32⟩
  | .hbm, ⟨64, _⟩ => ⟨S12288x12288, .f32⟩
  | .hbm, ⟨65, _⟩ => ⟨S_, .f32⟩
  | .hbm, ⟨66, _⟩ => ⟨S12288x12288, .f32⟩
  | .hbm, ⟨67, _⟩ => ⟨S12288x12288, .f32⟩
  | .hbm, ⟨68, _⟩ => ⟨S_, .f32⟩
  | .hbm, ⟨69, _⟩ => ⟨S12288x12288, .f32⟩
  | .hbm, ⟨70, _⟩ => ⟨S12288x12288, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x256_0_1 : S393216x1.BroadcastsInDim S393216x256 (![0, 1] : Fin 2 → Fin S393216x256.rank)
  bcast_S_S12288x256 : S_.BroadcastsInDim S12288x256 (![] : Fin 0 → Fin S12288x256.rank)
  bcast_S393216x1_S393216x128_0_1 : S393216x1.BroadcastsInDim S393216x128 (![0, 1] : Fin 2 → Fin S393216x128.rank)
  bcast_S_S12288x128 : S_.BroadcastsInDim S12288x128 (![] : Fin 0 → Fin S12288x128.rank)
  transposes_S12288x128_S128x12288_1_0 : S12288x128.Transposes [1, 0] S128x12288
  bcast_S_S12288x12288 : S_.BroadcastsInDim S12288x12288 (![] : Fin 0 → Fin S12288x12288.rank)
  dot_S12288x512_S512x256_S12288x256_1_0_0_1_n_n_wf : DotDims.WF S12288x512 S512x256 S12288x256 [1] [0] [0] [1] [] []
  gather_S12288x256_S393216x1_S393216x256_1_0_n_n_0_1_1256_wf : GatherDims.WF S12288x256 S393216x1 S393216x256 [1] [0] [] [0] [] 1 ![1, 256]
  scatter_S12288x256_S393216x1_S393216x256_1_0_0_1_wf : ScatterDims.WF S12288x256 S393216x1 S393216x256 [1] [0] [0] 1
  dot_S12288x256_S256x128_S12288x128_1_0_0_1_n_n_wf : DotDims.WF S12288x256 S256x128 S12288x128 [1] [0] [0] [1] [] []
  gather_S12288x128_S393216x1_S393216x128_1_0_n_n_0_1_1128_wf : GatherDims.WF S12288x128 S393216x1 S393216x128 [1] [0] [] [0] [] 1 ![1, 128]
  scatter_S12288x128_S393216x1_S393216x128_1_0_0_1_wf : ScatterDims.WF S12288x128 S393216x1 S393216x128 [1] [0] [0] 1
  dot_S12288x128_S128x12288_S12288x12288_1_0_0_1_n_n_wf : DotDims.WF S12288x128 S128x12288 S12288x12288 [1] [0] [0] [1] [] []

variable [Facts₀]

def dot_S12288x512_S512x256_S12288x256_1_0_0_1_n_n : DotDims S12288x512 S512x256 S12288x256 where
  lhsContracting := [1]
  rhsContracting := [0]
  lhsNonContracting := [0]
  rhsNonContracting := [1]
  lhsBatch := []
  rhsBatch := []
  wf := dot_S12288x512_S512x256_S12288x256_1_0_0_1_n_n_wf
def gather_S12288x256_S393216x1_S393216x256_1_0_n_n_0_1_1256 : GatherDims S12288x256 S393216x1 S393216x256 where
  offsetDims := [1]
  collapsedSliceDims := [0]
  operandBatchingDims := []
  startIndicesBatchingDims := []
  startIndexMap := [0]
  indexVectorDim := 1
  sliceSizes := ![1, 256]
  wf := gather_S12288x256_S393216x1_S393216x256_1_0_n_n_0_1_1256_wf
def scatter_S12288x256_S393216x1_S393216x256_1_0_0_1 : ScatterDims S12288x256 S393216x1 S393216x256 where
  updateWindowDims := [1]
  insertedWindowDims := [0]
  scatterDimsToOperandDims := [0]
  indexVectorDim := 1
  wf := scatter_S12288x256_S393216x1_S393216x256_1_0_0_1_wf
def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def scatter_S12288x128_S393216x1_S393216x128_1_0_0_1 : ScatterDims S12288x128 S393216x1 S393216x128 where
  updateWindowDims := [1]
  insertedWindowDims := [0]
  scatterDimsToOperandDims := [0]
  indexVectorDim := 1
  wf := scatter_S12288x128_S393216x1_S393216x128_1_0_0_1_wf
def dot_S12288x128_S128x12288_S12288x12288_1_0_0_1_n_n : DotDims S12288x128 S128x12288 S12288x12288 where
  lhsContracting := [1]
  rhsContracting := [0]
  lhsNonContracting := [0]
  rhsNonContracting := [1]
  lhsBatch := []
  rhsBatch := []
  wf := dot_S12288x128_S128x12288_S12288x12288_1_0_0_1_n_n_wf

class Facts : Prop extends Facts₀ where

variable [Facts]
-- ==== Proof.K.Region0.lean ====
/-
  Pipeline 0 of the program (a tiled matrix product), stated at a parameter `V`: the buffer contents the region is
  entered with. Window 0 is a row block of the left operand, window 1 the whole right operand, window 2 the row block of
  the result the body stores. What the body leaves in the result's staging buffer is the product of the two input blocks
  (the payload `k0_pay1`), whatever the buffer held before: the body also loads that buffer, but nothing it computes
  reads the loaded value. The proof data take each input's staging buffer to hold its block at every point, and the
  body obligation is the body's triple at a generic point.
-/
import proofs.«150485_j3504693313768_1_alg».proof.Proof.Gen.Kernel.Launch
import proofs.«150485_j3504693313768_1_alg».proof.Proof.Gen.Kernel.Skeleton
import proofs.«150485_j3504693313768_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S1536x512 := Rect.unit (s := S1536x512) ![0, 0] S1536x512.size inb_S1536x512_S1536x512_0_0
abbrev r0_1 : Rect S512x256 := Rect.unit (s := S512x256) ![0, 0] S512x256.size inb_S512x256_S512x256_0_0
abbrev r0_2 : Rect S1536x256 := Rect.unit (s := S1536x256) ![0, 0] S1536x256.size inb_S1536x256_S1536x256_0_0

/-- The result's staging buffer after the body, from the two input blocks: its one store as a piece. -/
def out0_2 (x0 : Vec F S1536x512 .f32) (x1 : Vec F S512x256 .f32) : Vec F S1536x256 .f32 :=
  View.canon [⟨r0_2, k0_pay1 (View.ld x0 r0_0) (View.ld x1 r0_1)⟩]

/-- The one store covers the buffer. -/
theorem cover0_2 (p0 : Vec F S1536x256 .f32) (y : S1536x256.Idx) :
    ∃ pc ∈ ([⟨r0_2, p0⟩] : List (View.Piece (Elt F) S1536x256 .f32)), y ∈ pc.1.set :=
  View.cover_of_tiled [⟨r0_2, p0⟩] S1536x256.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S1536x512 .f32) (harg1 : arg1.IsWhole)
    (arg2 : Memref sig .tc .vmem S512x256 .f32) (harg2 : arg2.IsWhole) (arg3 : Memref sig .tc .vmem S1536x256 .f32) (harg3 : arg3.IsWhole)
    (x0 : Vec F S1536x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at the product of the two input blocks; the invariant is the scoped rest
    and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Pipeline 1 of the program (a tiled matrix product), stated at a parameter `V`: the buffer contents the region is
  entered with. Window 0 is a row block of the left operand, window 1 the whole right operand, window 2 the row block of
  the result the body stores. What the body leaves in the result's staging buffer is the product of the two input blocks
  (the payload `k1_pay1`), whatever the buffer held before: the body also loads that buffer, but nothing it computes
  reads the loaded value. The proof data take each input's staging buffer to hold its block at every point, and the
  body obligation is the body's triple at a generic point.
-/
import proofs.«150485_j3504693313768_1_alg».proof.Proof.Gen.Kernel.Launch
import proofs.«150485_j3504693313768_1_alg».proof.Proof.Gen.Kernel.Skeleton
import proofs.«150485_j3504693313768_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S1536x256 := Rect.unit (s := S1536x256) ![0, 0] S1536x256.size inb_S1536x256_S1536x256_0_0
abbrev r1_1 : Rect S256x128 := Rect.unit (s := S256x128) ![0, 0] S256x128.size inb_S256x128_S256x128_0_0
abbrev r1_2 : Rect S1536x128 := Rect.unit (s := S1536x128) ![0, 0] S1536x128.size inb_S1536x128_S1536x128_0_0

/-- The result's staging buffer after the body, from the two input blocks: its one store as a piece. -/
def out1_2 (x0 : Vec F S1536x256 .f32) (x1 : Vec F S256x128 .f32) : Vec F S1536x128 .f32 :=
  View.canon [⟨r1_2, k1_pay1 (View.ld x0 r1_0) (View.ld x1 r1_1)⟩]

/-- The one store covers the buffer. -/
theorem cover1_2 (p0 : Vec F S1536x128 .f32) (y : S1536x128.Idx) :
    ∃ pc ∈ ([⟨r1_2, p0⟩] : List (View.Piece (Elt F) S1536x128 .f32)), y ∈ pc.1.set :=
  View.cover_of_tiled [⟨r1_2, p0⟩] S1536x128.size (by rfl) y

set_option maxHeartbeats 1000000 in
/-- The body on whole staging memrefs, the inputs' at contents `x0`, `x1` and the output's at anything, runs to the
    continuation holding the inputs' as they were and the output's at `out1_2 x0 x1`. -/
theorem sound_kernel1 (c : Dev nD) (E : Set ℕ) (i : grid1.Coords) (arg1 : Memref sig .tc .vmem S1536x256 .f32) (harg1 : arg1.IsWhole)
    (arg2 : Memref sig .tc .vmem S256x128 .f32) (harg2 : arg2.IsWhole) (arg3 : Memref sig .tc .vmem S1536x128 .f32) (harg3 : arg3.IsWhole)
    (x0 : Vec F S1536x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer at its block and the output's at the product of the two input blocks; the invariant is the scoped rest
    and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Pipeline 2 of the program (a tiled matrix product), stated at a parameter `V`: the buffer contents the region is
  entered with. Window 0 is a row block of the left operand, window 1 the whole right operand, window 2 the row block of
  the result the body stores. What the body leaves in the result's staging buffer is the product of the two input blocks
  (the payload `k2_pay1`), whatever the buffer held before: the body also loads that buffer, but nothing it computes
  reads the loaded value. The proof data take each input's staging buffer to hold its block at every point, and the
  body obligation is the body's triple at a generic point.
-/
import proofs.«150485_j3504693313768_1_alg».proof.Proof.Gen.Kernel.Launch
import proofs.«150485_j3504693313768_1_alg».proof.Proof.Gen.Kernel.Skeleton
import proofs.«150485_j3504693313768_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S1536x256 := Rect.unit (s := S1536x256) ![0, 0] S1536x256.size inb_S1536x256_S1536x256_0_0
abbrev r2_1 : Rect S256x128 := Rect.unit (s := S256x128) ![0, 0] S256x128.size inb_S256x128_S256x128_0_0
abbrev r2_2 : Rect S1536x128 := Rect.unit (s := S1536x128) ![0, 0] S1536x128.size inb_S1536x128_S1536x128_0_0

/-- The result's staging buffer after the body, from the two input blocks: its one store as a piece. -/
def out2_2 (x0 : Vec F S1536x256 .f32) (x1 : Vec F S256x128 .f32) : Vec F S1536x128 .f32 :=
  View.canon [⟨r2_2, k2_pay1 (View.ld x0 r2_0) (View.ld x1 r2_1)⟩]

/-- The one store covers the buffer. -/
theorem cover2_2 (p0 : Vec F S1536x128 .f32) (y : S1536x128.Idx) :
    ∃ pc ∈ ([⟨r2_2, p0⟩] : List (View.Piece (Elt F) S1536x128 .f32)), y ∈ pc.1.set :=
  View.cover_of_tiled [⟨r2_2, p0⟩] S1536x128.size (by rfl) y

set_option maxHeartbeats 1000000 in
/-- The body on whole staging memrefs, the inputs' at contents `x0`, `x1` and the output's at anything, runs to the
    continuation holding the inputs' as they were and the output's at `out2_2 x0 x1`. -/
theorem sound_kernel2 (c : Dev nD) (E : Set ℕ) (i : grid2.Coords) (arg1 : Memref sig .tc .vmem S1536x256 .f32) (harg1 : arg1.IsWhole)
    (arg2 : Memref sig .tc .vmem S256x128 .f32) (harg2 : arg2.IsWhole) (arg3 : Memref sig .tc .vmem S1536x128 .f32) (harg3 : arg3.IsWhole)
    (x0 : Vec F S1536x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer at its block and the output's at the product of the two input blocks; the invariant is the scoped rest
    and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Pipeline 3 of the program (the decoder): point (i, j) of the grid takes row block i and row block j of ONE array, the
  latent table, through two input windows, and stores the logistic of the inner products of their rows into block (i, j)
  of the result. Stated at a parameter `V`, the buffer contents the region is entered with. The two input windows read
  the same array, so the core holds it in two halves, one per window; the result's array it holds whole. What the body
  leaves in the result's staging buffer is a function of the two input blocks alone (the payload `k3_pay1`).
-/
import proofs.«150485_j3504693313768_1_alg».proof.Proof.Gen.Kernel.Launch
import proofs.«150485_j3504693313768_1_alg».proof.Proof.Gen.Kernel.Skeleton
import proofs.«150485_j3504693313768_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S1024x128 := Rect.unit (s := S1024x128) ![0, 0] S1024x128.size inb_S1024x128_S1024x128_0_0
abbrev r3_1 : Rect S1024x128 := Rect.unit (s := S1024x128) ![0, 0] S1024x128.size inb_S1024x128_S1024x128_0_0
abbrev r3_2 : Rect S1024x1024 := Rect.unit (s := S1024x1024) ![0, 0] S1024x1024.size inb_S1024x1024_S1024x1024_0_0

/-- The result's staging buffer after the body, from the two input blocks: its one store as a piece. -/
def out3_2 (x0 : Vec F S1024x128 .f32) (x1 : Vec F S1024x128 .f32) : Vec F S1024x1024 .f32 :=
  View.canon [⟨r3_2, k3_pay1 (View.ld x0 r3_0) (View.ld x1 r3_1)⟩]

/-- The one store covers the buffer. -/
theorem cover3_2 (p0 : Vec F S1024x1024 .f32) (y : S1024x1024.Idx) :
    ∃ pc ∈ ([⟨r3_2, p0⟩] : List (View.Piece (Elt F) S1024x1024 .f32)), y ∈ pc.1.set :=
  View.cover_of_tiled [⟨r3_2, p0⟩] S1024x1024.size (by rfl) y

set_option maxHeartbeats 1000000 in
/-- The body on whole staging memrefs, the inputs' at contents `x0`, `x1` and the output's at anything, runs to the
    continuation holding the inputs' as they were and the output's at `out3_2 x0 x1`. -/
theorem sound_kernel3 (c : Dev nD) (E : Set ℕ) (i : grid3.Coords) (arg1 : Memref sig .tc .vmem S1024x128 .f32) (harg1 : arg1.IsWhole)
    (arg2 : Memref sig .tc .vmem S1024x128 .f32) (harg2 : arg2.IsWhole) (arg3 : Memref sig .tc .vmem S1024x1024 .f32) (harg3 : arg3.IsWhole)
    (x0 : Vec F S1024x128 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__ip_sigmoid_kernel i arg1 harg1 arg2 harg2 arg3 harg3) K := by
  simp only [cc3__ip_sigmoid_kernel_eq_skeleton]; unfold cc3__ip_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body at point `t` each
    input's buffer at its block and the output's at the payload of the two input blocks; the invariant is the scoped rest
    and the random-number register, untouched; nothing owed; the shared array's two halves to the two input windows. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region3Arrays.lean ====
/-
  The decoder's arrays among the core's unscoped buffers. The latent table is read through two input windows, so the
  whole buffer behind it, held at the full share, is split into its left and right halves, one per window, when the
  region is entered, and the two halves are joined again when it is left; the result's array is held whole throughout.
  Off these two buffers the contents are untouched.
-/
import proofs.«150485_j3504693313768_1_alg».proof.Proof.K.Region3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The decoder's windows stand on two buffers: the latent table and the result. -/
theorem arrs3 : Finset.univ.image (Pipeline.arrRef (cfgs 3).spec) = {main_v28, main_v43} := by decide

/-- Each window's array as the proof data hold it, spelt as a whole-buffer points-to. -/
theorem arr3_0 (c : Dev nD) (n : ℕ) :
    (((cfg3.win 0).arr.view.loc (c.tc : Thread nD τ) ↦[(cfg3.win 0).arr.view.set]{(dat3 V c).share 0} (dat3 V c).arrAt 0 n) : sProp 𝕄)
      = ((c.tc : Thread nD τ).loc main_v28 ↦{fullShare.left} V c main_v28) := by
  rw [(arr_whole3 0).set_eq_univ, (dat3 V c).arrAt_in 0 rfl n]; rfl
theorem arr3_1 (c : Dev nD) (n : ℕ) :
    (((cfg3.win 1).arr.view.loc (c.tc : Thread nD τ) ↦[(cfg3.win 1).arr.view.set]{(dat3 V c).share 1} (dat3 V c).arrAt 1 n) : sProp 𝕄)
      = ((c.tc : Thread nD τ).loc main_v28 ↦{fullShare.right} V c main_v28) := by
  rw [(arr_whole3 1).set_eq_univ, (dat3 V c).arrAt_in 1 rfl n]; rfl
theorem arr3_2 (c : Dev nD) (n : ℕ) :
    (((cfg3.win 2).arr.view.loc (c.tc : Thread nD τ) ↦[(cfg3.win 2).arr.view.set]{(dat3 V c).share 2} (dat3 V c).arrAt 2 n) : sProp 𝕄)
      = ((c.tc : Thread nD τ).loc main_v43 ↦{fullShare} (dat3 V c).arrAt 2 n) := by
  rw [(arr_whole3 2).set_eq_univ]; rfl

/-- ENTRY: the unscoped buffers at `V` are the decoder's arrays at their entry contents, the latent table in two halves,
    and the rest. -/
theorem arrays3_of_bufs (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  refine sep_mono ?_ .rfl
  unfold Pipeline.arrBufs Dat.arrays
  rw [arrs3, bigSep_insert (by decide), bigSep_singleton, bigSep_W3, arr3_0, arr3_1, arr3_2]
  show iprop(((c.tc : Thread nD τ).loc main_v28 ↦{fullShare} V c main_v28) ∗ ((c.tc : Thread nD τ).loc main_v43 ↦{fullShare} V c main_v43)) ⊢ _
  iintro ⟨H28, H43⟩
  ihave H := (pointsTo_share (PosShare.mem_left_op_right fullShare)).1 $$ H28
  icases H with ⟨Hl, Hr⟩
  isplitl [Hl]; · iexact Hl
  isplitl [Hr]; · iexact Hr
  iexact H43

/-- EXIT: the decoder's arrays at their final contents, the two halves of the latent table joined, and the rest make the
    unscoped buffers at any contents `V'` that hold the result's array as the pipeline left it and agree with `V`
    elsewhere. -/
theorem bufs_of_arrays3 (c : Dev nD) (V' : (b : Ref sig .tc) → Buf (Elt F) ((c : Thread nD τ).loc b))
    (h28 : V' main_v28 = V c main_v28) (h43 : V' main_v43 = (dat3 V c).arrAt 2 cfg3.N)
    (hrest : ∀ b, b ∉ Finset.univ.image (Pipeline.arrRef spec3) → V' b = V c b) :
    iprop((dat3 V c).arrays ((dat3 V c).arrAt · cfg3.N) ∗ Pipeline.unscopedRest spec3 c (V c)) ⊢ (unscopedBufs c V' : sProp 𝕄) := by
  rw [Pipeline.unscopedBufs_split₀ cfgs 3 winFacts₀3.arr_unscoped c V']
  refine sep_mono ?_ (Entails.of_eq ?_)
  · unfold Pipeline.arrBufs Dat.arrays
    rw [arrs3, bigSep_insert (by decide), bigSep_singleton, bigSep_W3, arr3_0, arr3_1, arr3_2, h28, h43]
    show _ ⊢ iprop(((c.tc : Thread nD τ).loc main_v28 ↦{fullShare} V c main_v28) ∗ ((c.tc : Thread nD τ).loc main_v43 ↦{fullShare} (dat3 V c).arrAt 2 cfg3.N))
    iintro ⟨Hl, Hr, H43⟩
    isplitl [Hl Hr]
    · iapply (pointsTo_share (PosShare.mem_left_op_right fullShare)).2
      isplitl [Hl]; · iexact Hl
      iexact Hr
    iexact H43
  · unfold Pipeline.unscopedRest
    exact bigSep_congr fun b hb => by rw [hrest b (Finset.mem_sdiff.mp hb).2]

end Cert.Kernel.Hand

end
-- ==== Proof.K.Run.lean ====
/-
  The whole program as a run of eight segments: the four tiled kernels and the stretches of array operations between
  them. The buffer contents at every boundary are a fold from the launch memory: a stretch applies its operations, a
  kernel region replaces its result array by what its write-backs leave and changes nothing else. Every segment is
  entered from "all unscoped buffers at the boundary's contents, the random-number register at some state, nothing owed" and
  left at the next boundary's. The run ends with every unscoped buffer at the last boundary's contents; in particular
  each argument array, which no segment writes, ends as launched.
-/
import proofs.«150485_j3504693313768_1_alg».proof.Proof.K.Region0
import proofs.«150485_j3504693313768_1_alg».proof.Proof.K.Region1
import proofs.«150485_j3504693313768_1_alg».proof.Proof.K.Region2
import proofs.«150485_j3504693313768_1_alg».proof.Proof.K.Region3Arrays
import proofs.«150485_j3504693313768_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (region 0's entry). -/
abbrev W0 : Dev nD → Valuation τ sig (Elt F) := fun c b => m (c, b)
abbrev V0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- A buffer that is no output array of region 0 leaves it as it entered: an input array is handed back unchanged. -/
theorem W1_keeps (c : Dev nD) (b : Ref sig .tc) (hout : Pipeline.arrRef spec0 2 ≠ b)
    (hin : (Pipeline.arrRef spec0 0 = b ∨ Pipeline.arrRef spec0 1 = b) ∨ ∀ w, Pipeline.arrRef spec0 w ≠ b) :
    W1 m c (Proc.devRef .tc b) = W0 m c (Proc.devRef .tc b) := by
  rcases hin with (h | h) | h
  · subst h; exact (W1_arr m c 0).trans (((dat0 (V0 m) c).arrAt_in 0 rfl _).trans (A_eq0 (V0 m) c 0))
  · subst h; exact (W1_arr m c 1).trans (((dat0 (V0 m) c).arrAt_in 1 rfl _).trans (A_eq0 (V0 m) c 1))
  · exact W1_of_ne m c b h

/-- After the first message-passing stretch, -/
abbrev W2 : Dev nD → Valuation τ sig (Elt F) := fun c => StableHlo.after hostOps1 (W1 m c)
/-- and after the rectifier (region 1's entry). -/
abbrev W3 : Dev nD → Valuation τ sig (Elt F) := fun c => StableHlo.after hostOps1_1 (W2 m c)
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- A buffer that is no output array of region 1 leaves it as it entered: an input array is handed back unchanged. -/
theorem W4_keeps (c : Dev nD) (b : Ref sig .tc) (hout : Pipeline.arrRef spec1 2 ≠ b)
    (hin : (Pipeline.arrRef spec1 0 = b ∨ Pipeline.arrRef spec1 1 = b) ∨ ∀ w, Pipeline.arrRef spec1 w ≠ b) :
    W4 m c (Proc.devRef .tc b) = W3 m c (Proc.devRef .tc b) := by
  rcases hin with (h | h) | h
  · subst h; exact (W4_arr m c 0).trans (((dat1 (V3 m) c).arrAt_in 0 rfl _).trans (A_eq1 (V3 m) c 0))
  · subst h; exact (W4_arr m c 1).trans (((dat1 (V3 m) c).arrAt_in 1 rfl _).trans (A_eq1 (V3 m) c 1))
  · exact W4_of_ne m c b h

/-- After the second message-passing stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- A buffer that is no output array of region 2 leaves it as it entered: an input array is handed back unchanged. -/
theorem W6_keeps (c : Dev nD) (b : Ref sig .tc) (hout : Pipeline.arrRef spec2 2 ≠ b)
    (hin : (Pipeline.arrRef spec2 0 = b ∨ Pipeline.arrRef spec2 1 = b) ∨ ∀ w, Pipeline.arrRef spec2 w ≠ b) :
    W6 m c (Proc.devRef .tc b) = W5 m c (Proc.devRef .tc b) := by
  rcases hin with (h | h) | h
  · subst h; exact (W6_arr m c 0).trans (((dat2 (V5 m) c).arrAt_in 0 rfl _).trans (A_eq2 (V5 m) c 0))
  · subst h; exact (W6_arr m c 1).trans (((dat2 (V5 m) c).arrAt_in 1 rfl _).trans (A_eq2 (V5 m) c 1))
  · exact W6_of_ne m c b h

/-- After the third message-passing stretch (the decoder's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At the decoder's exit: the result's array at what the pipeline leaves, every other buffer as entered. -/
def W8 (c : Dev nD) : Valuation τ sig (Elt F) :=
  Function.update (W7 m c) (Proc.devRef .tc main_v43) ((dat3 (V7 m) c).arrAt 2 cfg3.N)
theorem W8_res (c : Dev nD) : W8 m c (Proc.devRef .tc main_v43) = (dat3 (V7 m) c).arrAt 2 cfg3.N := by
  unfold W8; exact Function.update_self ..
theorem W8_of_ne (c : Dev nD) (b : Ref sig .tc) (hb : b ≠ main_v43) :
    W8 m c (Proc.devRef .tc b) = W7 m c (Proc.devRef .tc b) := by
  unfold W8; exact Function.update_of_ne (StableHlo.devRef_ne_of_ne hb) ..
abbrev V8 : (c : Dev nD) → (b : Ref sig .tc) → Buf (Elt F) ((c : Thread nD τ).loc b) := fun c b => W8 m c b

/-! ## No segment writes an argument -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps3 _ hostOps3_writes (r := main_arg0) (by decide)
    _ = W5 m c (Proc.devRef .tc main_arg0) := W6_keeps m c main_arg0 (by decide) (by decide)
    _ = W4 m c (Proc.devRef .tc main_arg0) := StableHlo.after_of_writes_sub hostOps2 _ hostOps2_writes (r := main_arg0) (by decide)
    _ = W3 m c (Proc.devRef .tc main_arg0) := W4_keeps m c main_arg0 (by decide) (by decide)
    _ = W2 m c (Proc.devRef .tc main_arg0) := StableHlo.after_of_writes_sub hostOps1_1 _ hostOps1_1_writes (r := main_arg0) (by decide)
    _ = W1 m c (Proc.devRef .tc main_arg0) := StableHlo.after_of_writes_sub hostOps1 _ hostOps1_writes (r := main_arg0) (by decide)
    _ = W0 m c (Proc.devRef .tc main_arg0) := W1_keeps m c main_arg0 (by decide) (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps3 _ hostOps3_writes (r := main_arg1) (by decide)
    _ = W5 m c (Proc.devRef .tc main_arg1) := W6_keeps m c main_arg1 (by decide) (by decide)
    _ = W4 m c (Proc.devRef .tc main_arg1) := StableHlo.after_of_writes_sub hostOps2 _ hostOps2_writes (r := main_arg1) (by decide)
    _ = W3 m c (Proc.devRef .tc main_arg1) := W4_keeps m c main_arg1 (by decide) (by decide)
    _ = W2 m c (Proc.devRef .tc main_arg1) := StableHlo.after_of_writes_sub hostOps1_1 _ hostOps1_1_writes (r := main_arg1) (by decide)
    _ = W1 m c (Proc.devRef .tc main_arg1) := StableHlo.after_of_writes_sub hostOps1 _ hostOps1_writes (r := main_arg1) (by decide)
    _ = W0 m c (Proc.devRef .tc main_arg1) := W1_keeps m c main_arg1 (by decide) (by decide)
    _ = m ((c : Thread nD τ).loc main_arg1) := rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps3 _ hostOps3_writes (r := main_arg2) (by decide)
    _ = W5 m c (Proc.devRef .tc main_arg2) := W6_keeps m c main_arg2 (by decide) (by decide)
    _ = W4 m c (Proc.devRef .tc main_arg2) := StableHlo.after_of_writes_sub hostOps2 _ hostOps2_writes (r := main_arg2) (by decide)
    _ = W3 m c (Proc.devRef .tc main_arg2) := W4_keeps m c main_arg2 (by decide) (by decide)
    _ = W2 m c (Proc.devRef .tc main_arg2) := StableHlo.after_of_writes_sub hostOps1_1 _ hostOps1_1_writes (r := main_arg2) (by decide)
    _ = W1 m c (Proc.devRef .tc main_arg2) := StableHlo.after_of_writes_sub hostOps1 _ hostOps1_writes (r := main_arg2) (by decide)
    _ = W0 m c (Proc.devRef .tc main_arg2) := W1_keeps m c main_arg2 (by decide) (by decide)
    _ = m ((c : Thread nD τ).loc main_arg2) := rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps3 _ hostOps3_writes (r := main_arg3) (by decide)
    _ = W5 m c (Proc.devRef .tc main_arg3) := W6_keeps m c main_arg3 (by decide) (by decide)
    _ = W4 m c (Proc.devRef .tc main_arg3) := StableHlo.after_of_writes_sub hostOps2 _ hostOps2_writes (r := main_arg3) (by decide)
    _ = W3 m c (Proc.devRef .tc main_arg3) := W4_keeps m c main_arg3 (by decide) (by decide)
    _ = W2 m c (Proc.devRef .tc main_arg3) := StableHlo.after_of_writes_sub hostOps1_1 _ hostOps1_1_writes (r := main_arg3) (by decide)
    _ = W1 m c (Proc.devRef .tc main_arg3) := StableHlo.after_of_writes_sub hostOps1 _ hostOps1_writes (r := main_arg3) (by decide)
    _ = W0 m c (Proc.devRef .tc main_arg3) := W1_keeps m c main_arg3 (by decide) (by decide)
    _ = m ((c : Thread nD τ).loc main_arg3) := rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps3 _ hostOps3_writes (r := main_arg4) (by decide)
    _ = W5 m c (Proc.devRef .tc main_arg4) := W6_keeps m c main_arg4 (by decide) (by decide)
    _ = W4 m c (Proc.devRef .tc main_arg4) := StableHlo.after_of_writes_sub hostOps2 _ hostOps2_writes (r := main_arg4) (by decide)
    _ = W3 m c (Proc.devRef .tc main_arg4) := W4_keeps m c main_arg4 (by decide) (by decide)
    _ = W2 m c (Proc.devRef .tc main_arg4) := StableHlo.after_of_writes_sub hostOps1_1 _ hostOps1_1_writes (r := main_arg4) (by decide)
    _ = W1 m c (Proc.devRef .tc main_arg4) := StableHlo.after_of_writes_sub hostOps1 _ hostOps1_writes (r := main_arg4) (by decide)
    _ = W0 m c (Proc.devRef .tc main_arg4) := W1_keeps m c main_arg4 (by decide) (by decide)
    _ = m ((c : Thread nD τ).loc main_arg4) := rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps3 _ hostOps3_writes (r := main_arg5) (by decide)
    _ = W5 m c (Proc.devRef .tc main_arg5) := W6_keeps m c main_arg5 (by decide) (by decide)
    _ = W4 m c (Proc.devRef .tc main_arg5) := StableHlo.after_of_writes_sub hostOps2 _ hostOps2_writes (r := main_arg5) (by decide)
    _ = W3 m c (Proc.devRef .tc main_arg5) := W4_keeps m c main_arg5 (by decide) (by decide)
    _ = W2 m c (Proc.devRef .tc main_arg5) := StableHlo.after_of_writes_sub hostOps1_1 _ hostOps1_1_writes (r := main_arg5) (by decide)
    _ = W1 m c (Proc.devRef .tc main_arg5) := StableHlo.after_of_writes_sub hostOps1 _ hostOps1_writes (r := main_arg5) (by decide)
    _ = W0 m c (Proc.devRef .tc main_arg5) := W1_keeps m c main_arg5 (by decide) (by decide)
    _ = m ((c : Thread nD τ).loc main_arg5) := rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := StableHlo.after_of_writes_sub hostOps3 _ hostOps3_writes (r := main_arg6) (by decide)
    _ = W5 m c (Proc.devRef .tc main_arg6) := W6_keeps m c main_arg6 (by decide) (by decide)
    _ = W4 m c (Proc.devRef .tc main_arg6) := StableHlo.after_of_writes_sub hostOps2 _ hostOps2_writes (r := main_arg6) (by decide)
    _ = W3 m c (Proc.devRef .tc main_arg6) := W4_keeps m c main_arg6 (by decide) (by decide)
    _ = W2 m c (Proc.devRef .tc main_arg6) := StableHlo.after_of_writes_sub hostOps1_1 _ hostOps1_1_writes (r := main_arg6) (by decide)
    _ = W1 m c (Proc.devRef .tc main_arg6) := StableHlo.after_of_writes_sub hostOps1 _ hostOps1_writes (r := main_arg6) (by decide)
    _ = W0 m c (Proc.devRef .tc main_arg6) := W1_keeps m c main_arg6 (by decide) (by decide)
    _ = m ((c : Thread nD τ).loc main_arg6) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the random-number register at some state and the core's dues, at nothing. -/
abbrev R (c : Dev nD) : sProp 𝕄 := iprop((∃ r, prngReg c r) ∗ ∃ W, owes (c : Thread nD τ) (0 : CellTallies nD τ sig Unit) W)
/-- A stretch of array operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at its entry contents, left at its exit
    contents. Its arrays are split out of the unscoped buffers and put back at what the pipeline left; the random-number
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents. Its arrays are split out of the unscoped buffers and put back at what the pipeline left; the random-number
    register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit
    contents. Its arrays are split out of the unscoped buffers and put back at what the pipeline left; the random-number
    register goes into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder over the thread state: entered from every unscoped buffer at its entry contents, left at its exit
    contents beside the core owing nothing. The latent table's buffer is split between the two input windows at entry and
    joined at exit; the random-number register goes into the invariant and comes out. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := arrays3_of_bufs (V7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V7 m c))
        ⊢ (unscopedBufs c (V8 m c) : sProp 𝕄) :=
      bufs_of_arrays3 (V7 m) c (V8 m c) (W8_of_ne m c main_v28 (by decide)) (W8_res m c)
        (fun b hb => W8_of_ne m c b fun e => hb (e ▸ Finset.mem_image.mpr ⟨2, Finset.mem_univ _, rfl⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m),
    .host (hseg hostOps2 hostOps2_sub hostOps2_fresh (W4 m)),
    .region (reg2 m),
    .host (hseg hostOps3 hostOps3_sub hostOps3_fresh (W6 m)),
    .region (reg3 m) ]

set_option backward.isDefEq.respectTransparency.types false in
/-- THE RUN: from any memory with zero counters, every weakly fair execution of the program on the TensorCores
    terminates, nothing faulting, and every final state holds every unscoped buffer at the last boundary's contents. -/
theorem run_all (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W8 m c (Proc.devRef .tc b)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb => h c _ (mem_uc b hb))

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_arg0 (by decide)).trans (W8_main_arg0 m c), (h c main_arg1 (by decide)).trans (W8_main_arg1 m c),
    (h c main_arg2 (by decide)).trans (W8_main_arg2 m c), (h c main_arg3 (by decide)).trans (W8_main_arg3 m c),
    (h c main_arg4 (by decide)).trans (W8_main_arg4 m c), (h c main_arg5 (by decide)).trans (W8_main_arg5 m c),
    (h c main_arg6 (by decide)).trans (W8_main_arg6 m c)⟩) (run_all m ρ)

end Cert.Kernel.Hand

end
-- ==== Proof.KI.Region0.lean ====
/-
  Pipeline 0 of the program (a tiled matrix product), stated at a parameter `V`: the buffer contents the region is
  entered with. Window 0 is a row block of the left operand, window 1 the whole right operand, window 2 the row block of
  the result the body stores. What the body leaves in the result's staging buffer is the product of the two input blocks
  (the payload `k0_pay1`), whatever the buffer held before: the body also loads that buffer, but nothing it computes
  reads the loaded value. The proof data take each input's staging buffer to hold its block at every point, and the
  body obligation is the body's triple at a generic point.
-/
import proofs.«150485_j3504693313768_1_alg».proof.Proof.Gen.KernelIdeal.Launch
import proofs.«150485_j3504693313768_1_alg».proof.Proof.Gen.KernelIdeal.Skeleton
import proofs.«150485_j3504693313768_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S1536x512 := Rect.unit (s := S1536x512) ![0, 0] S1536x512.size inb_S1536x512_S1536x512_0_0
abbrev r0_1 : Rect S512x256 := Rect.unit (s := S512x256) ![0, 0] S512x256.size inb_S512x256_S512x256_0_0
abbrev r0_2 : Rect S1536x256 := Rect.unit (s := S1536x256) ![0, 0] S1536x256.size inb_S1536x256_S1536x256_0_0

/-- The result's staging buffer after the body, from the two input blocks: its one store as a piece. -/
def out0_2 (x0 : Vec F S1536x512 .f32) (x1 : Vec F S512x256 .f32) : Vec F S1536x256 .f32 :=
  View.canon [⟨r0_2, k0_pay1 (View.ld x0 r0_0) (View.ld x1 r0_1)⟩]

/-- The one store covers the buffer. -/
theorem cover0_2 (p0 : Vec F S1536x256 .f32) (y : S1536x256.Idx) :
    ∃ pc ∈ ([⟨r0_2, p0⟩] : List (View.Piece (Elt F) S1536x256 .f32)), y ∈ pc.1.set :=
  View.cover_of_tiled [⟨r0_2, p0⟩] S1536x256.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S1536x512 .f32) (harg1 : arg1.IsWhole)
    (arg2 : Memref sig .tc .vmem S512x256 .f32) (harg2 : arg2.IsWhole) (arg3 : Memref sig .tc .vmem S1536x256 .f32) (harg3 : arg3.IsWhole)
    (x0 : Vec F S1536x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at the product of the two input blocks; the invariant is the scoped rest
    and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Pipeline 1 of the program (a tiled matrix product), stated at a parameter `V`: the buffer contents the region is
  entered with. Window 0 is a row block of the left operand, window 1 the whole right operand, window 2 the row block of
  the result the body stores. What the body leaves in the result's staging buffer is the product of the two input blocks
  (the payload `k1_pay1`), whatever the buffer held before: the body also loads that buffer, but nothing it computes
  reads the loaded value. The proof data take each input's staging buffer to hold its block at every point, and the
  body obligation is the body's triple at a generic point.
-/
import proofs.«150485_j3504693313768_1_alg».proof.Proof.Gen.KernelIdeal.Launch
import proofs.«150485_j3504693313768_1_alg».proof.Proof.Gen.KernelIdeal.Skeleton
import proofs.«150485_j3504693313768_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S1536x256 := Rect.unit (s := S1536x256) ![0, 0] S1536x256.size inb_S1536x256_S1536x256_0_0
abbrev r1_1 : Rect S256x128 := Rect.unit (s := S256x128) ![0, 0] S256x128.size inb_S256x128_S256x128_0_0
abbrev r1_2 : Rect S1536x128 := Rect.unit (s := S1536x128) ![0, 0] S1536x128.size inb_S1536x128_S1536x128_0_0

/-- The result's staging buffer after the body, from the two input blocks: its one store as a piece. -/
def out1_2 (x0 : Vec F S1536x256 .f32) (x1 : Vec F S256x128 .f32) : Vec F S1536x128 .f32 :=
  View.canon [⟨r1_2, k1_pay1 (View.ld x0 r1_0) (View.ld x1 r1_1)⟩]

/-- The one store covers the buffer. -/
theorem cover1_2 (p0 : Vec F S1536x128 .f32) (y : S1536x128.Idx) :
    ∃ pc ∈ ([⟨r1_2, p0⟩] : List (View.Piece (Elt F) S1536x128 .f32)), y ∈ pc.1.set :=
  View.cover_of_tiled [⟨r1_2, p0⟩] S1536x128.size (by rfl) y

set_option maxHeartbeats 1000000 in
/-- The body on whole staging memrefs, the inputs' at contents `x0`, `x1` and the output's at anything, runs to the
    continuation holding the inputs' as they were and the output's at `out1_2 x0 x1`. -/
theorem sound_kernel1 (c : Dev nD) (E : Set ℕ) (i : grid1.Coords) (arg1 : Memref sig .tc .vmem S1536x256 .f32) (harg1 : arg1.IsWhole)
    (arg2 : Memref sig .tc .vmem S256x128 .f32) (harg2 : arg2.IsWhole) (arg3 : Memref sig .tc .vmem S1536x128 .f32) (harg3 : arg3.IsWhole)
    (x0 : Vec F S1536x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer at its block and the output's at the product of the two input blocks; the invariant is the scoped rest
    and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Pipeline 2 of the program (a tiled matrix product), stated at a parameter `V`: the buffer contents the region is
  entered with. Window 0 is a row block of the left operand, window 1 the whole right operand, window 2 the row block of
  the result the body stores. What the body leaves in the result's staging buffer is the product of the two input blocks
  (the payload `k2_pay1`), whatever the buffer held before: the body also loads that buffer, but nothing it computes
  reads the loaded value. The proof data take each input's staging buffer to hold its block at every point, and the
  body obligation is the body's triple at a generic point.
-/
import proofs.«150485_j3504693313768_1_alg».proof.Proof.Gen.KernelIdeal.Launch
import proofs.«150485_j3504693313768_1_alg».proof.Proof.Gen.KernelIdeal.Skeleton
import proofs.«150485_j3504693313768_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S1536x256 := Rect.unit (s := S1536x256) ![0, 0] S1536x256.size inb_S1536x256_S1536x256_0_0
abbrev r2_1 : Rect S256x128 := Rect.unit (s := S256x128) ![0, 0] S256x128.size inb_S256x128_S256x128_0_0
abbrev r2_2 : Rect S1536x128 := Rect.unit (s := S1536x128) ![0, 0] S1536x128.size inb_S1536x128_S1536x128_0_0

/-- The result's staging buffer after the body, from the two input blocks: its one store as a piece. -/
def out2_2 (x0 : Vec F S1536x256 .f32) (x1 : Vec F S256x128 .f32) : Vec F S1536x128 .f32 :=
  View.canon [⟨r2_2, k2_pay1 (View.ld x0 r2_0) (View.ld x1 r2_1)⟩]

/-- The one store covers the buffer. -/
theorem cover2_2 (p0 : Vec F S1536x128 .f32) (y : S1536x128.Idx) :
    ∃ pc ∈ ([⟨r2_2, p0⟩] : List (View.Piece (Elt F) S1536x128 .f32)), y ∈ pc.1.set :=
  View.cover_of_tiled [⟨r2_2, p0⟩] S1536x128.size (by rfl) y

set_option maxHeartbeats 1000000 in
/-- The body on whole staging memrefs, the inputs' at contents `x0`, `x1` and the output's at anything, runs to the
    continuation holding the inputs' as they were and the output's at `out2_2 x0 x1`. -/
theorem sound_kernel2 (c : Dev nD) (E : Set ℕ) (i : grid2.Coords) (arg1 : Memref sig .tc .vmem S1536x256 .f32) (harg1 : arg1.IsWhole)
    (arg2 : Memref sig .tc .vmem S256x128 .f32) (harg2 : arg2.IsWhole) (arg3 : Memref sig .tc .vmem S1536x128 .f32) (harg3 : arg3.IsWhole)
    (x0 : Vec F S1536x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer at its block and the output's at the product of the two input blocks; the invariant is the scoped rest
    and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Pipeline 3 of the program (the decoder): point (i, j) of the grid takes row block i and row block j of ONE array, the
  latent table, through two input windows, and stores the logistic of the inner products of their rows into block (i, j)
  of the result. Stated at a parameter `V`, the buffer contents the region is entered with. The two input windows read
  the same array, so the core holds it in two halves, one per window; the result's array it holds whole. What the body
  leaves in the result's staging buffer is a function of the two input blocks alone (the payload `k3_pay1`).
-/
import proofs.«150485_j3504693313768_1_alg».proof.Proof.Gen.KernelIdeal.Launch
import proofs.«150485_j3504693313768_1_alg».proof.Proof.Gen.KernelIdeal.Skeleton
import proofs.«150485_j3504693313768_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S1024x128 := Rect.unit (s := S1024x128) ![0, 0] S1024x128.size inb_S1024x128_S1024x128_0_0
abbrev r3_1 : Rect S1024x128 := Rect.unit (s := S1024x128) ![0, 0] S1024x128.size inb_S1024x128_S1024x128_0_0
abbrev r3_2 : Rect S1024x1024 := Rect.unit (s := S1024x1024) ![0, 0] S1024x1024.size inb_S1024x1024_S1024x1024_0_0

/-- The result's staging buffer after the body, from the two input blocks: its one store as a piece. -/
def out3_2 (x0 : Vec F S1024x128 .f32) (x1 : Vec F S1024x128 .f32) : Vec F S1024x1024 .f32 :=
  View.canon [⟨r3_2, k3_pay1 (View.ld x0 r3_0) (View.ld x1 r3_1)⟩]

/-- The one store covers the buffer. -/
theorem cover3_2 (p0 : Vec F S1024x1024 .f32) (y : S1024x1024.Idx) :
    ∃ pc ∈ ([⟨r3_2, p0⟩] : List (View.Piece (Elt F) S1024x1024 .f32)), y ∈ pc.1.set :=
  View.cover_of_tiled [⟨r3_2, p0⟩] S1024x1024.size (by rfl) y

set_option maxHeartbeats 1000000 in
/-- The body on whole staging memrefs, the inputs' at contents `x0`, `x1` and the output's at anything, runs to the
    continuation holding the inputs' as they were and the output's at `out3_2 x0 x1`. -/
theorem sound_kernel3 (c : Dev nD) (E : Set ℕ) (i : grid3.Coords) (arg1 : Memref sig .tc .vmem S1024x128 .f32) (harg1 : arg1.IsWhole)
    (arg2 : Memref sig .tc .vmem S1024x128 .f32) (harg2 : arg2.IsWhole) (arg3 : Memref sig .tc .vmem S1024x1024 .f32) (harg3 : arg3.IsWhole)
    (x0 : Vec F S1024x128 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__ip_sigmoid_kernel i arg1 harg1 arg2 harg2 arg3 harg3) K := by
  simp only [cc3__ip_sigmoid_kernel_eq_skeleton]; unfold cc3__ip_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body at point `t` each
    input's buffer at its block and the output's at the payload of the two input blocks; the invariant is the scoped rest
    and the random-number register, untouched; nothing owed; the shared array's two halves to the two input windows. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region3Arrays.lean ====
/-
  The decoder's arrays among the core's unscoped buffers. The latent table is read through two input windows, so the
  whole buffer behind it, held at the full share, is split into its left and right halves, one per window, when the
  region is entered, and the two halves are joined again when it is left; the result's array is held whole throughout.
  Off these two buffers the contents are untouched.
-/
import proofs.«150485_j3504693313768_1_alg».proof.Proof.KI.Region3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The decoder's windows stand on two buffers: the latent table and the result. -/
theorem arrs3 : Finset.univ.image (Pipeline.arrRef (cfgs 3).spec) = {main_v28, main_v43} := by decide

/-- Each window's array as the proof data hold it, spelt as a whole-buffer points-to. -/
theorem arr3_0 (c : Dev nD) (n : ℕ) :
    (((cfg3.win 0).arr.view.loc (c.tc : Thread nD τ) ↦[(cfg3.win 0).arr.view.set]{(dat3 V c).share 0} (dat3 V c).arrAt 0 n) : sProp 𝕄)
      = ((c.tc : Thread nD τ).loc main_v28 ↦{fullShare.left} V c main_v28) := by
  rw [(arr_whole3 0).set_eq_univ, (dat3 V c).arrAt_in 0 rfl n]; rfl
theorem arr3_1 (c : Dev nD) (n : ℕ) :
    (((cfg3.win 1).arr.view.loc (c.tc : Thread nD τ) ↦[(cfg3.win 1).arr.view.set]{(dat3 V c).share 1} (dat3 V c).arrAt 1 n) : sProp 𝕄)
      = ((c.tc : Thread nD τ).loc main_v28 ↦{fullShare.right} V c main_v28) := by
  rw [(arr_whole3 1).set_eq_univ, (dat3 V c).arrAt_in 1 rfl n]; rfl
theorem arr3_2 (c : Dev nD) (n : ℕ) :
    (((cfg3.win 2).arr.view.loc (c.tc : Thread nD τ) ↦[(cfg3.win 2).arr.view.set]{(dat3 V c).share 2} (dat3 V c).arrAt 2 n) : sProp 𝕄)
      = ((c.tc : Thread nD τ).loc main_v43 ↦{fullShare} (dat3 V c).arrAt 2 n) := by
  rw [(arr_whole3 2).set_eq_univ]; rfl

/-- ENTRY: the unscoped buffers at `V` are the decoder's arrays at their entry contents, the latent table in two halves,
    and the rest. -/
theorem arrays3_of_bufs (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  refine sep_mono ?_ .rfl
  unfold Pipeline.arrBufs Dat.arrays
  rw [arrs3, bigSep_insert (by decide), bigSep_singleton, bigSep_W3, arr3_0, arr3_1, arr3_2]
  show iprop(((c.tc : Thread nD τ).loc main_v28 ↦{fullShare} V c main_v28) ∗ ((c.tc : Thread nD τ).loc main_v43 ↦{fullShare} V c main_v43)) ⊢ _
  iintro ⟨H28, H43⟩
  ihave H := (pointsTo_share (PosShare.mem_left_op_right fullShare)).1 $$ H28
  icases H with ⟨Hl, Hr⟩
  isplitl [Hl]; · iexact Hl
  isplitl [Hr]; · iexact Hr
  iexact H43

/-- EXIT: the decoder's arrays at their final contents, the two halves of the latent table joined, and the rest make the
    unscoped buffers at any contents `V'` that hold the result's array as the pipeline left it and agree with `V`
    elsewhere. -/
theorem bufs_of_arrays3 (c : Dev nD) (V' : (b : Ref sig .tc) → Buf (Elt F) ((c : Thread nD τ).loc b))
    (h28 : V' main_v28 = V c main_v28) (h43 : V' main_v43 = (dat3 V c).arrAt 2 cfg3.N)
    (hrest : ∀ b, b ∉ Finset.univ.image (Pipeline.arrRef spec3) → V' b = V c b) :
    iprop((dat3 V c).arrays ((dat3 V c).arrAt · cfg3.N) ∗ Pipeline.unscopedRest spec3 c (V c)) ⊢ (unscopedBufs c V' : sProp 𝕄) := by
  rw [Pipeline.unscopedBufs_split₀ cfgs 3 winFacts₀3.arr_unscoped c V']
  refine sep_mono ?_ (Entails.of_eq ?_)
  · unfold Pipeline.arrBufs Dat.arrays
    rw [arrs3, bigSep_insert (by decide), bigSep_singleton, bigSep_W3, arr3_0, arr3_1, arr3_2, h28, h43]
    show _ ⊢ iprop(((c.tc : Thread nD τ).loc main_v28 ↦{fullShare} V c main_v28) ∗ ((c.tc : Thread nD τ).loc main_v43 ↦{fullShare} (dat3 V c).arrAt 2 cfg3.N))
    iintro ⟨Hl, Hr, H43⟩
    isplitl [Hl Hr]
    · iapply (pointsTo_share (PosShare.mem_left_op_right fullShare)).2
      isplitl [Hl]; · iexact Hl
      iexact Hr
    iexact H43
  · unfold Pipeline.unscopedRest
    exact bigSep_congr fun b hb => by rw [hrest b (Finset.mem_sdiff.mp hb).2]

end Cert.KernelIdeal.Hand

end
-- ==== Proof.KI.Run.lean ====
/-
  The whole program as a run of eight segments: the four tiled kernels and the stretches of array operations between
  them. The buffer contents at every boundary are a fold from the launch memory: a stretch applies its operations, a
  kernel region replaces its result array by what its write-backs leave and changes nothing else. Every segment is
  entered from "all unscoped buffers at the boundary's contents, the random-number register at some state, nothing owed" and
  left at the next boundary's. The run ends with every unscoped buffer at the last boundary's contents; in particular
  each argument array, which no segment writes, ends as launched.
-/
import proofs.«150485_j3504693313768_1_alg».proof.Proof.KI.Region0
import proofs.«150485_j3504693313768_1_alg».proof.Proof.KI.Region1
import proofs.«150485_j3504693313768_1_alg».proof.Proof.KI.Region2
import proofs.«150485_j3504693313768_1_alg».proof.Proof.KI.Region3Arrays
import proofs.«150485_j3504693313768_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (region 0's entry). -/
abbrev W0 : Dev nD → Valuation τ sig (Elt F) := fun c b => m (c, b)
abbrev V0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- A buffer that is no output array of region 0 leaves it as it entered: an input array is handed back unchanged. -/
theorem W1_keeps (c : Dev nD) (b : Ref sig .tc) (hout : Pipeline.arrRef spec0 2 ≠ b)
    (hin : (Pipeline.arrRef spec0 0 = b ∨ Pipeline.arrRef spec0 1 = b) ∨ ∀ w, Pipeline.arrRef spec0 w ≠ b) :
    W1 m c (Proc.devRef .tc b) = W0 m c (Proc.devRef .tc b) := by
  rcases hin with (h | h) | h
  · subst h; exact (W1_arr m c 0).trans (((dat0 (V0 m) c).arrAt_in 0 rfl _).trans (A_eq0 (V0 m) c 0))
  · subst h; exact (W1_arr m c 1).trans (((dat0 (V0 m) c).arrAt_in 1 rfl _).trans (A_eq0 (V0 m) c 1))
  · exact W1_of_ne m c b h

/-- After the first message-passing stretch, -/
abbrev W2 : Dev nD → Valuation τ sig (Elt F) := fun c => StableHlo.after hostOps1 (W1 m c)
/-- and after the rectifier (region 1's entry). -/
abbrev W3 : Dev nD → Valuation τ sig (Elt F) := fun c => StableHlo.after hostOps1_1 (W2 m c)
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- A buffer that is no output array of region 1 leaves it as it entered: an input array is handed back unchanged. -/
theorem W4_keeps (c : Dev nD) (b : Ref sig .tc) (hout : Pipeline.arrRef spec1 2 ≠ b)
    (hin : (Pipeline.arrRef spec1 0 = b ∨ Pipeline.arrRef spec1 1 = b) ∨ ∀ w, Pipeline.arrRef spec1 w ≠ b) :
    W4 m c (Proc.devRef .tc b) = W3 m c (Proc.devRef .tc b) := by
  rcases hin with (h | h) | h
  · subst h; exact (W4_arr m c 0).trans (((dat1 (V3 m) c).arrAt_in 0 rfl _).trans (A_eq1 (V3 m) c 0))
  · subst h; exact (W4_arr m c 1).trans (((dat1 (V3 m) c).arrAt_in 1 rfl _).trans (A_eq1 (V3 m) c 1))
  · exact W4_of_ne m c b h

/-- After the second message-passing stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- A buffer that is no output array of region 2 leaves it as it entered: an input array is handed back unchanged. -/
theorem W6_keeps (c : Dev nD) (b : Ref sig .tc) (hout : Pipeline.arrRef spec2 2 ≠ b)
    (hin : (Pipeline.arrRef spec2 0 = b ∨ Pipeline.arrRef spec2 1 = b) ∨ ∀ w, Pipeline.arrRef spec2 w ≠ b) :
    W6 m c (Proc.devRef .tc b) = W5 m c (Proc.devRef .tc b) := by
  rcases hin with (h | h) | h
  · subst h; exact (W6_arr m c 0).trans (((dat2 (V5 m) c).arrAt_in 0 rfl _).trans (A_eq2 (V5 m) c 0))
  · subst h; exact (W6_arr m c 1).trans (((dat2 (V5 m) c).arrAt_in 1 rfl _).trans (A_eq2 (V5 m) c 1))
  · exact W6_of_ne m c b h

/-- After the third message-passing stretch (the decoder's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At the decoder's exit: the result's array at what the pipeline leaves, every other buffer as entered. -/
def W8 (c : Dev nD) : Valuation τ sig (Elt F) :=
  Function.update (W7 m c) (Proc.devRef .tc main_v43) ((dat3 (V7 m) c).arrAt 2 cfg3.N)
theorem W8_res (c : Dev nD) : W8 m c (Proc.devRef .tc main_v43) = (dat3 (V7 m) c).arrAt 2 cfg3.N := by
  unfold W8; exact Function.update_self ..
theorem W8_of_ne (c : Dev nD) (b : Ref sig .tc) (hb : b ≠ main_v43) :
    W8 m c (Proc.devRef .tc b) = W7 m c (Proc.devRef .tc b) := by
  unfold W8; exact Function.update_of_ne (StableHlo.devRef_ne_of_ne hb) ..
abbrev V8 : (c : Dev nD) → (b : Ref sig .tc) → Buf (Elt F) ((c : Thread nD τ).loc b) := fun c b => W8 m c b

/-! ## No segment writes an argument -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps3 _ hostOps3_writes (r := main_arg0) (by decide)
    _ = W5 m c (Proc.devRef .tc main_arg0) := W6_keeps m c main_arg0 (by decide) (by decide)
    _ = W4 m c (Proc.devRef .tc main_arg0) := StableHlo.after_of_writes_sub hostOps2 _ hostOps2_writes (r := main_arg0) (by decide)
    _ = W3 m c (Proc.devRef .tc main_arg0) := W4_keeps m c main_arg0 (by decide) (by decide)
    _ = W2 m c (Proc.devRef .tc main_arg0) := StableHlo.after_of_writes_sub hostOps1_1 _ hostOps1_1_writes (r := main_arg0) (by decide)
    _ = W1 m c (Proc.devRef .tc main_arg0) := StableHlo.after_of_writes_sub hostOps1 _ hostOps1_writes (r := main_arg0) (by decide)
    _ = W0 m c (Proc.devRef .tc main_arg0) := W1_keeps m c main_arg0 (by decide) (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps3 _ hostOps3_writes (r := main_arg1) (by decide)
    _ = W5 m c (Proc.devRef .tc main_arg1) := W6_keeps m c main_arg1 (by decide) (by decide)
    _ = W4 m c (Proc.devRef .tc main_arg1) := StableHlo.after_of_writes_sub hostOps2 _ hostOps2_writes (r := main_arg1) (by decide)
    _ = W3 m c (Proc.devRef .tc main_arg1) := W4_keeps m c main_arg1 (by decide) (by decide)
    _ = W2 m c (Proc.devRef .tc main_arg1) := StableHlo.after_of_writes_sub hostOps1_1 _ hostOps1_1_writes (r := main_arg1) (by decide)
    _ = W1 m c (Proc.devRef .tc main_arg1) := StableHlo.after_of_writes_sub hostOps1 _ hostOps1_writes (r := main_arg1) (by decide)
    _ = W0 m c (Proc.devRef .tc main_arg1) := W1_keeps m c main_arg1 (by decide) (by decide)
    _ = m ((c : Thread nD τ).loc main_arg1) := rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps3 _ hostOps3_writes (r := main_arg2) (by decide)
    _ = W5 m c (Proc.devRef .tc main_arg2) := W6_keeps m c main_arg2 (by decide) (by decide)
    _ = W4 m c (Proc.devRef .tc main_arg2) := StableHlo.after_of_writes_sub hostOps2 _ hostOps2_writes (r := main_arg2) (by decide)
    _ = W3 m c (Proc.devRef .tc main_arg2) := W4_keeps m c main_arg2 (by decide) (by decide)
    _ = W2 m c (Proc.devRef .tc main_arg2) := StableHlo.after_of_writes_sub hostOps1_1 _ hostOps1_1_writes (r := main_arg2) (by decide)
    _ = W1 m c (Proc.devRef .tc main_arg2) := StableHlo.after_of_writes_sub hostOps1 _ hostOps1_writes (r := main_arg2) (by decide)
    _ = W0 m c (Proc.devRef .tc main_arg2) := W1_keeps m c main_arg2 (by decide) (by decide)
    _ = m ((c : Thread nD τ).loc main_arg2) := rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps3 _ hostOps3_writes (r := main_arg3) (by decide)
    _ = W5 m c (Proc.devRef .tc main_arg3) := W6_keeps m c main_arg3 (by decide) (by decide)
    _ = W4 m c (Proc.devRef .tc main_arg3) := StableHlo.after_of_writes_sub hostOps2 _ hostOps2_writes (r := main_arg3) (by decide)
    _ = W3 m c (Proc.devRef .tc main_arg3) := W4_keeps m c main_arg3 (by decide) (by decide)
    _ = W2 m c (Proc.devRef .tc main_arg3) := StableHlo.after_of_writes_sub hostOps1_1 _ hostOps1_1_writes (r := main_arg3) (by decide)
    _ = W1 m c (Proc.devRef .tc main_arg3) := StableHlo.after_of_writes_sub hostOps1 _ hostOps1_writes (r := main_arg3) (by decide)
    _ = W0 m c (Proc.devRef .tc main_arg3) := W1_keeps m c main_arg3 (by decide) (by decide)
    _ = m ((c : Thread nD τ).loc main_arg3) := rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps3 _ hostOps3_writes (r := main_arg4) (by decide)
    _ = W5 m c (Proc.devRef .tc main_arg4) := W6_keeps m c main_arg4 (by decide) (by decide)
    _ = W4 m c (Proc.devRef .tc main_arg4) := StableHlo.after_of_writes_sub hostOps2 _ hostOps2_writes (r := main_arg4) (by decide)
    _ = W3 m c (Proc.devRef .tc main_arg4) := W4_keeps m c main_arg4 (by decide) (by decide)
    _ = W2 m c (Proc.devRef .tc main_arg4) := StableHlo.after_of_writes_sub hostOps1_1 _ hostOps1_1_writes (r := main_arg4) (by decide)
    _ = W1 m c (Proc.devRef .tc main_arg4) := StableHlo.after_of_writes_sub hostOps1 _ hostOps1_writes (r := main_arg4) (by decide)
    _ = W0 m c (Proc.devRef .tc main_arg4) := W1_keeps m c main_arg4 (by decide) (by decide)
    _ = m ((c : Thread nD τ).loc main_arg4) := rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps3 _ hostOps3_writes (r := main_arg5) (by decide)
    _ = W5 m c (Proc.devRef .tc main_arg5) := W6_keeps m c main_arg5 (by decide) (by decide)
    _ = W4 m c (Proc.devRef .tc main_arg5) := StableHlo.after_of_writes_sub hostOps2 _ hostOps2_writes (r := main_arg5) (by decide)
    _ = W3 m c (Proc.devRef .tc main_arg5) := W4_keeps m c main_arg5 (by decide) (by decide)
    _ = W2 m c (Proc.devRef .tc main_arg5) := StableHlo.after_of_writes_sub hostOps1_1 _ hostOps1_1_writes (r := main_arg5) (by decide)
    _ = W1 m c (Proc.devRef .tc main_arg5) := StableHlo.after_of_writes_sub hostOps1 _ hostOps1_writes (r := main_arg5) (by decide)
    _ = W0 m c (Proc.devRef .tc main_arg5) := W1_keeps m c main_arg5 (by decide) (by decide)
    _ = m ((c : Thread nD τ).loc main_arg5) := rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := StableHlo.after_of_writes_sub hostOps3 _ hostOps3_writes (r := main_arg6) (by decide)
    _ = W5 m c (Proc.devRef .tc main_arg6) := W6_keeps m c main_arg6 (by decide) (by decide)
    _ = W4 m c (Proc.devRef .tc main_arg6) := StableHlo.after_of_writes_sub hostOps2 _ hostOps2_writes (r := main_arg6) (by decide)
    _ = W3 m c (Proc.devRef .tc main_arg6) := W4_keeps m c main_arg6 (by decide) (by decide)
    _ = W2 m c (Proc.devRef .tc main_arg6) := StableHlo.after_of_writes_sub hostOps1_1 _ hostOps1_1_writes (r := main_arg6) (by decide)
    _ = W1 m c (Proc.devRef .tc main_arg6) := StableHlo.after_of_writes_sub hostOps1 _ hostOps1_writes (r := main_arg6) (by decide)
    _ = W0 m c (Proc.devRef .tc main_arg6) := W1_keeps m c main_arg6 (by decide) (by decide)
    _ = m ((c : Thread nD τ).loc main_arg6) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the random-number register at some state and the core's dues, at nothing. -/
abbrev R (c : Dev nD) : sProp 𝕄 := iprop((∃ r, prngReg c r) ∗ ∃ W, owes (c : Thread nD τ) (0 : CellTallies nD τ sig Unit) W)
/-- A stretch of array operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at its entry contents, left at its exit
    contents. Its arrays are split out of the unscoped buffers and put back at what the pipeline left; the random-number
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents. Its arrays are split out of the unscoped buffers and put back at what the pipeline left; the random-number
    register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit
    contents. Its arrays are split out of the unscoped buffers and put back at what the pipeline left; the random-number
    register goes into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder over the thread state: entered from every unscoped buffer at its entry contents, left at its exit
    contents beside the core owing nothing. The latent table's buffer is split between the two input windows at entry and
    joined at exit; the random-number register goes into the invariant and comes out. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := arrays3_of_bufs (V7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V7 m c))
        ⊢ (unscopedBufs c (V8 m c) : sProp 𝕄) :=
      bufs_of_arrays3 (V7 m) c (V8 m c) (W8_of_ne m c main_v28 (by decide)) (W8_res m c)
        (fun b hb => W8_of_ne m c b fun e => hb (e ▸ Finset.mem_image.mpr ⟨2, Finset.mem_univ _, rfl⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m),
    .host (hseg hostOps2 hostOps2_sub hostOps2_fresh (W4 m)),
    .region (reg2 m),
    .host (hseg hostOps3 hostOps3_sub hostOps3_fresh (W6 m)),
    .region (reg3 m) ]

set_option backward.isDefEq.respectTransparency.types false in
/-- THE RUN: from any memory with zero counters, every weakly fair execution of the program on the TensorCores
    terminates, nothing faulting, and every final state holds every unscoped buffer at the last boundary's contents. -/
theorem run_all (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W8 m c (Proc.devRef .tc b)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb => h c _ (mem_uc b hb))

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_arg0 (by decide)).trans (W8_main_arg0 m c), (h c main_arg1 (by decide)).trans (W8_main_arg1 m c),
    (h c main_arg2 (by decide)).trans (W8_main_arg2 m c), (h c main_arg3 (by decide)).trans (W8_main_arg3 m c),
    (h c main_arg4 (by decide)).trans (W8_main_arg4 m c), (h c main_arg5 (by decide)).trans (W8_main_arg5 m c),
    (h c main_arg6 (by decide)).trans (W8_main_arg6 m c)⟩) (run_all m ρ)

end Cert.KernelIdeal.Hand

end
-- ==== Proof.RefForms.lean ====
/-
  The array operations between the kernels, named once as functions of what they read. One message-passing step takes a
  table X of node features: every edge e takes row dst[e] of X (an index below zero counted from the end), scales it by
  val[e], and the scaled rows are added up by source node src[e] into a table of zeros. The program applies this step at
  width 256 and twice at width 128; the rectifier is the entrywise maximum with zero; the decoder is
  1 / (1 + exp (-(Z Zᵀ))) entry by entry. Both programs spell these operations with the same host functions, so each of
  their results is one of these functions of the tables that enter it.
-/
import proofs.«150485_j3504693313768_1_alg».proof.Proof.Gen.ReferenceIdeal

noncomputable section

namespace Cert.Bridge

open Cert.ReferenceIdeal Cert.ReferenceIdeal.Gen Idealize.ShloMosaic

variable {F : FTy → Type} [FloatOps F]

/-- An edge's end node as a gather reads it: an index below zero is counted from the end of the table. -/
def wrapIdx (dst : (⟨S393216, .i32⟩ : BufTy).Contents (Elt F)) : (⟨S393216x1, .i32⟩ : BufTy).Contents (Elt F) :=
  broadcastInDim S393216x1 ![0] bcast_S393216_S393216x1_0 (select (cmpi .slt dst (broadcastInDim S393216 ![] bcast_S_S393216 (constantI S_ 32 0#32))) (addi dst (broadcastInDim S393216 ![] bcast_S_S393216 (constantI S_ 32 12288#32))) dst)

/-- One message-passing step on a table of 256 columns. -/
def spmm256 (src dst : (⟨S393216, .i32⟩ : BufTy).Contents (Elt F)) (val : (⟨S393216, .f32⟩ : BufTy).Contents (Elt F))
    (X : (⟨S12288x256, .f32⟩ : BufTy).Contents (Elt F)) : (⟨S12288x256, .f32⟩ : BufTy).Contents (Elt F) :=
  Host.scatterAdd scatter_S12288x256_S393216x1_S393216x256_1_0_0_1 (broadcastInDim S12288x256 ![] bcast_S_S12288x256 (constant S_ .f32 0x00000000#32)) (broadcastInDim S393216x1 ![0] bcast_S393216_S393216x1_0 src) (mulf (broadcastInDim S393216x256 ![0, 1] bcast_S393216x1_S393216x256_0_1 (broadcastInDim S393216x1 ![0] bcast_S393216_S393216x1_0 val)) (Host.gather gather_S12288x256_S393216x1_S393216x256_1_0_n_n_0_1_1256 X (wrapIdx dst)))

/-- One message-passing step on a table of 128 columns. -/
def spmm128 (src dst : (⟨S393216, .i32⟩ : BufTy).Contents (Elt F)) (val : (⟨S393216, .f32⟩ : BufTy).Contents (Elt F))
    (X : (⟨S12288x128, .f32⟩ : BufTy).Contents (Elt F)) : (⟨S12288x128, .f32⟩ : BufTy).Contents (Elt F) :=
  Host.scatterAdd scatter_S12288x128_S393216x1_S393216x128_1_0_0_1 (broadcastInDim S12288x128 ![] bcast_S_S12288x128 (constant S_ .f32 0x00000000#32)) (broadcastInDim S393216x1 ![0] bcast_S393216_S393216x1_0 src) (mulf (broadcastInDim S393216x128 ![0, 1] bcast_S393216x1_S393216x128_0_1 (broadcastInDim S393216x1 ![0] bcast_S393216_S393216x1_0 val)) (Host.gather gather_S12288x128_S393216x1_S393216x128_1_0_n_n_0_1_1128 X (wrapIdx dst)))

/-- The rectifier: the entrywise maximum with zero. -/
def relu256 (X : (⟨S12288x256, .f32⟩ : BufTy).Contents (Elt F)) : (⟨S12288x256, .f32⟩ : BufTy).Contents (Elt F) :=
  maximumf X (broadcastInDim S12288x256 ![] bcast_S_S12288x256 (constant S_ .f32 0x00000000#32))

/-- The decoder as the reference spells it: 1 / (1 + exp (-(Z Zᵀ))). -/
def decode (Z : (⟨S12288x128, .f32⟩ : BufTy).Contents (Elt F)) : (⟨S12288x12288, .f32⟩ : BufTy).Contents (Elt F) :=
  Host.divf (broadcastInDim S12288x12288 ![] bcast_S_S12288x12288 (constant S_ .f32 0x3F800000#32)) (addf (broadcastInDim S12288x12288 ![] bcast_S_S12288x12288 (constant S_ .f32 0x3F800000#32)) (Host.exp (Host.negf (Host.dotGeneral dot_S12288x128_S128x12288_S12288x12288_1_0_0_1_n_n none Z (transpose S128x12288 [1, 0] Z transposes_S12288x128_S128x12288_1_0)))))

/-- The host's product of the features with the first weight. -/
def prod0 (x : (⟨S12288x512, .f32⟩ : BufTy).Contents (Elt F)) (w : (⟨S512x256, .f32⟩ : BufTy).Contents (Elt F)) :
    (⟨S12288x256, .f32⟩ : BufTy).Contents (Elt F) :=
  Host.dotGeneral dot_S12288x512_S512x256_S12288x256_1_0_0_1_n_n none x w

/-- The host's product of a 12288 × 256 table with a 256 × 128 weight. -/
def prod1 (h : (⟨S12288x256, .f32⟩ : BufTy).Contents (Elt F)) (w : (⟨S256x128, .f32⟩ : BufTy).Contents (Elt F)) :
    (⟨S12288x128, .f32⟩ : BufTy).Contents (Elt F) :=
  Host.dotGeneral dot_S12288x256_S256x128_S12288x128_1_0_0_1_n_n none h w

/-- The hidden table: the rectified first step on `X W₁`. -/
def hidden (x : (⟨S12288x512, .f32⟩ : BufTy).Contents (Elt F)) (src dst : (⟨S393216, .i32⟩ : BufTy).Contents (Elt F))
    (val : (⟨S393216, .f32⟩ : BufTy).Contents (Elt F)) (w1 : (⟨S512x256, .f32⟩ : BufTy).Contents (Elt F)) :
    (⟨S12288x256, .f32⟩ : BufTy).Contents (Elt F) :=
  relu256 (spmm256 src dst val (Host.dotGeneral dot_S12288x512_S512x256_S12288x256_1_0_0_1_n_n none x w1))

/-- A latent table: one step on the hidden table times a 256 × 128 weight. -/
def latent (x : (⟨S12288x512, .f32⟩ : BufTy).Contents (Elt F)) (src dst : (⟨S393216, .i32⟩ : BufTy).Contents (Elt F))
    (val : (⟨S393216, .f32⟩ : BufTy).Contents (Elt F)) (w1 : (⟨S512x256, .f32⟩ : BufTy).Contents (Elt F))
    (w : (⟨S256x128, .f32⟩ : BufTy).Contents (Elt F)) : (⟨S12288x128, .f32⟩ : BufTy).Contents (Elt F) :=
  spmm128 src dst val (Host.dotGeneral dot_S12288x256_S256x128_S12288x128_1_0_0_1_n_n none (hidden x src dst val w1) w)

end Cert.Bridge

end
-- ==== Proof.KernelStretches.lean ====
/-
  The kernel program's stretches of array operations, each read at the one table it hands on, for any buffer contents
  `W` it starts from: the first stretch is one message-passing step at width 256 on the first product, the call that
  follows is the rectifier, the second and third stretches are one step at width 128 on the second and on the third
  product. They are the reference's operations on the same kinds of tables.
-/
import proofs.«150485_j3504693313768_1_alg».proof.Proof.Gen.KernelIdeal.Launch
import proofs.«150485_j3504693313768_1_alg».proof.Proof.RefForms
import Idealize.ShloMosaic.Lib.StableHlo.Run

noncomputable section

namespace Cert.Bridge

open Cert.KernelIdeal Cert.KernelIdeal.Gen Idealize.ShloMosaic Idealize.ShloMosaic.TcCoe Idealize.ShloMosaic.StableHlo

variable {F : FTy → Type} [FloatOps F]

set_option maxHeartbeats 4000000 in
/-- The first stretch leaves, in its last table, one step on the first product. -/
theorem stretch1 (W : Valuation τ sig (Elt F)) :
    after hostOps1 W (main_v13 : DevRef τ sig)
      = spmm256 (W (main_arg1 : DevRef τ sig)) (W (main_arg2 : DevRef τ sig)) (W (main_arg3 : DevRef τ sig)) (W (main_v0 : DevRef τ sig)) := by
  after_results
  rfl

/-- The call that follows rectifies that table. -/
theorem rectify (W : Valuation τ sig (Elt F)) :
    after hostOps1_1 W (main_v14 : DevRef τ sig) = relu256 (W (main_v13 : DevRef τ sig)) := by
  after_results
  rfl

set_option maxHeartbeats 4000000 in
/-- The second stretch leaves one step on the second product. -/
theorem stretch2 (W : Valuation τ sig (Elt F)) :
    after hostOps2 W (main_v28 : DevRef τ sig)
      = spmm128 (W (main_arg1 : DevRef τ sig)) (W (main_arg2 : DevRef τ sig)) (W (main_arg3 : DevRef τ sig)) (W (main_v15 : DevRef τ sig)) := by
  after_results
  rfl

set_option maxHeartbeats 4000000 in
/-- The third stretch leaves one step on the third product. -/
theorem stretch3 (W : Valuation τ sig (Elt F)) :
    after hostOps3 W (main_v42 : DevRef τ sig)
      = spmm128 (W (main_arg1 : DevRef τ sig)) (W (main_arg2 : DevRef τ sig)) (W (main_arg3 : DevRef τ sig)) (W (main_v29 : DevRef τ sig)) := by
  after_results
  rfl

end Cert.Bridge

end
-- ==== Proof.LibPlainDot.lean ====
/-
  The host's plain matrix product read at an entry, for any sizes.

  An `M × K` by `K × N` product taken by the host, with no batch axis and the left operand's columns contracted with
  the right operand's rows, reads at `(p, q)` the sum over the shared index `c` of `A (p, c) * B (c, q)`: over the
  extended reals the host's product is the textbook contraction, whatever its precision attribute.
-/
import Idealize.ShloMosaic.Lib.Pipeline.Value
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The host's `M × K` by `K × N` product reads, at `(p, q)`, the sum over the shared axis. The dimension numbers are
    any that contract the left operand's columns with the right operand's rows and batch nothing (`hD`). -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  simp only [Host.dotGeneral]
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.PlainDot

end
-- ==== Proof.LibSigmoid.lean ====
/-
  The logistic function over the extended reals, against the quotient a host program spells for it.

  Over the extended reals the logistic function is by definition the quotient 1 / (1 + e^(-x)), with the
  conventions e^(-oo) = 0 and e^(+oo) = +oo, so that it is 0 at -oo and 1 at +oo. A host program that expands the
  sigmoid writes that very quotient with its own negation, exponential, sum and quotient, and with the
  single-precision word 0x3F800000 for the numerator and the summand; that word denotes the real number 1. Hence a
  kernel's one-operation logistic and the host's four-operation expansion are the same function of x, at every
  extended real x, the infinities included: no finiteness is needed.

  With tanh likewise one function on both sides, a gated recurrent cell
      r = s(a_r + b_r),  z = s(a_z + b_z),  n = tanh(a_n + r * b_n),  h' = (1 - z) * n + z * h
  computed with s the logistic operation is, entry by entry, the cell computed with s the spelled-out quotient.
-/
import Idealize.ShloMosaic.PureOps.Ideal
import Idealize.ShloMosaic.PureOps.Vector

noncomputable section

namespace Cert.Lib.Sigmoid

open Idealize.ShloMosaic

/-- The single-precision word 0x3F800000 denotes the real number 1. -/
theorem ofBits_one_f32 : Ideal.ofBits .f32 0x3F800000#32 = 1 := by
  simp [Ideal.ofBits, Ideal.ieee, -EReal.coe_mul]; norm_num

/-- At one extended real: the logistic operation is the host's spelled-out quotient 1 / (1 + exp (-x)). -/
theorem logistic_eq_quotient (x : Ideal .f32) :
    FloatOps.logistic x
      = FloatOps.hostDivf (Ideal.ofBits .f32 0x3F800000#32)
          (FloatOps.addf (Ideal.ofBits .f32 0x3F800000#32) (FloatOps.hostUnary .exp (FloatOps.hostNegf x))) := by
  rw [ofBits_one_f32]; rfl

/-- Over a whole vector of any shape: a kernel's logistic of x is the host's quotient of the all-ones vector by the
    all-ones vector plus the exponential of the negated x, the all-ones vectors being any vectors one that hold the
    word 0x3F800000 at every index. -/
theorem vec_logistic_eq_quotient {s : Shape} (one one' x : FVec Ideal s .f32)
    (h1 : ∀ i, one i = Ideal.ofBits .f32 0x3F800000#32) (h1' : ∀ i, one' i = Ideal.ofBits .f32 0x3F800000#32) :
    logistic x = Host.divf one (addf one' (Host.exp (Host.negf x))) := by
  funext i
  simp only [logistic, Host.divf, addf, Host.exp, Host.negf, h1 i, h1' i]
  exact logistic_eq_quotient (x i)

/-- tanh is one function whether a kernel or a host program applies it. -/
theorem vec_tanh_eq_host {s : Shape} (x : FVec Ideal s .f32) : tanh x = Host.tanh x := rfl

/-- One gated recurrent cell, over vectors of any shape. With gate pre-activations a_r + b_r, a_z + b_z and
    a_n + r * b_n and the old state h, the new state (1 - z) * n + z * h computed with the kernel's operations (the
    logistic operation, tanh, the scalar 1 broadcast) is the new state computed with the host's (the quotient
    1 / (1 + exp (-x)) for each gate, the host's tanh, all-ones vectors), entry by entry, at every extended real. -/
theorem gru_cell_eq {s : Shape} (ar br az bz an bn h : FVec Ideal s .f32)
    (one_r one_r' one_z one_z' one_s : FVec Ideal s .f32)
    (hr : ∀ i, one_r i = Ideal.ofBits .f32 0x3F800000#32) (hr' : ∀ i, one_r' i = Ideal.ofBits .f32 0x3F800000#32)
    (hz : ∀ i, one_z i = Ideal.ofBits .f32 0x3F800000#32) (hz' : ∀ i, one_z' i = Ideal.ofBits .f32 0x3F800000#32)
    (hs : ∀ i, one_s i = Ideal.ofBits .f32 0x3F800000#32) :
    addf (mulf (subf (broadcast s (Scalar.ofBits .f32 0x3F800000#32)) (logistic (addf az bz)))
            (tanh (addf an (mulf (logistic (addf ar br)) bn))))
         (mulf (logistic (addf az bz)) h)
      = addf (mulf (subf one_s (Host.divf one_z (addf one_z' (Host.exp (Host.negf (addf az bz))))))
                (Host.tanh (addf an (mulf (Host.divf one_r (addf one_r' (Host.exp (Host.negf (addf ar br))))) bn))))
             (mulf (Host.divf one_z (addf one_z' (Host.exp (Host.negf (addf az bz))))) h) := by
  have hb : broadcast s (Scalar.ofBits (F := Ideal) .f32 0x3F800000#32) = one_s := funext fun i => (hs i).symm
  rw [← vec_logistic_eq_quotient one_r one_r' (addf ar br) hr hr', ← vec_logistic_eq_quotient one_z one_z' (addf az bz) hz hz',
    ← vec_tanh_eq_host, hb]

end Cert.Lib.Sigmoid

end
-- ==== Proof.ReferenceEntries.lean ====
/-
  The reference program's three matrix products read at one entry.

  The host's product of an M x K array by a K x N array, contracting the left operand's columns with the right operand's
  rows and batching nothing, reads at (p, q) the sum over the shared index c of x (p, c) * w (c, q), whatever the
  precision attribute. The last product is of z by its own transpose: the transpose read at (c, q) is z at (q, c), so
  the product's entry (p, q) is row p of z against row q of z. The reference then spells the sigmoid of that product as
  the quotient 1 / (1 + exp (-t)), its two all-ones arrays being the scalar word 0x3F800000 broadcast to every entry;
  over the extended reals that quotient is the logistic function of t at every t, the infinities included.
-/
import proofs.«150485_j3504693313768_1_alg».proof.Proof.Gen.ReferenceIdeal
import proofs.«150485_j3504693313768_1_alg».proof.Proof.LibPlainDot
import proofs.«150485_j3504693313768_1_alg».proof.Proof.LibSigmoid

noncomputable section

open scoped BigOperators

namespace Cert.Bridge

open Idealize.ShloMosaic Idealize.ShloMosaic.ValueIdx
open Cert.ReferenceIdeal Cert.ReferenceIdeal.Gen

/-- Entry (p, q) of the reference's first product, 12288 x 512 by 512 x 256: the sum over the shared index. -/
theorem refdot0_entry (x : FVec Ideal S12288x512 .f32) (w : FVec Ideal S512x256 .f32) (p : Fin 12288) (q : Fin 256) :
    Host.dotGeneral (F := Ideal) dot_S12288x512_S512x256_S12288x256_1_0_0_1_n_n none x w (ix2 p q)
      = ∑ c : Fin 512, x (ix2 p c) * w (ix2 c q) :=
  Cert.Lib.PlainDot.plain_dotGeneral_apply (M := 12288) (K := 512) (N := 256)
    dot_S12288x512_S512x256_S12288x256_1_0_0_1_n_n rfl none x w p q

/-- Entry (p, q) of the reference's second and third products, 12288 x 256 by 256 x 128: the sum over the shared
    index. -/
theorem refdot1_entry (x : FVec Ideal S12288x256 .f32) (w : FVec Ideal S256x128 .f32) (p : Fin 12288) (q : Fin 128) :
    Host.dotGeneral (F := Ideal) dot_S12288x256_S256x128_S12288x128_1_0_0_1_n_n none x w (ix2 p q)
      = ∑ c : Fin 256, x (ix2 p c) * w (ix2 c q) :=
  Cert.Lib.PlainDot.plain_dotGeneral_apply (M := 12288) (K := 256) (N := 128)
    dot_S12288x256_S256x128_S12288x128_1_0_0_1_n_n rfl none x w p q

/-- The transpose of a 12288 x 128 array read at (c, q) is the array at (q, c). -/
theorem transpose_entry (z : FVec Ideal S12288x128 .f32) (c : Fin 128) (q : Fin 12288) :
    transpose S128x12288 [1, 0] z transposes_S12288x128_S128x12288_1_0 (ix2 c q) = z (ix2 q c) :=
  transpose_apply [1, 0] z transposes_S12288x128_S128x12288_1_0 (ix2 c q) (ix2 q c) (fun b => by
    match b with
    | ⟨0, _⟩ => rfl
    | ⟨1, _⟩ => rfl)

/-- Entry (p, q) of the reference's decoder: the quotient 1 / (1 + exp (-(z zᵀ))) at (p, q) is the logistic function of
    row p of z against row q of z. -/
theorem refdecode_entry (z : FVec Ideal S12288x128 .f32) (p q : Fin 12288) :
    Host.divf (F := Ideal) (broadcastInDim S12288x12288 ![] bcast_S_S12288x12288 (constant (F := Ideal) S_ .f32 0x3F800000#32))
        (addf (broadcastInDim S12288x12288 ![] bcast_S_S12288x12288 (constant (F := Ideal) S_ .f32 0x3F800000#32))
          (Host.exp (Host.negf (Host.dotGeneral dot_S12288x128_S128x12288_S12288x12288_1_0_0_1_n_n none z
            (transpose S128x12288 [1, 0] z transposes_S12288x128_S128x12288_1_0))))) (ix2 p q)
      = FloatOps.logistic (∑ c : Fin 128, z (ix2 p c) * z (ix2 q c)) := by
  have hone : ∀ i, broadcastInDim S12288x12288 ![] bcast_S_S12288x12288 (constant (F := Ideal) S_ .f32 0x3F800000#32) i
      = Ideal.ofBits .f32 0x3F800000#32 := fun _ => rfl
  rw [← Cert.Lib.Sigmoid.vec_logistic_eq_quotient _ _ _ hone hone]
  show FloatOps.logistic (Host.dotGeneral (F := Ideal) dot_S12288x128_S128x12288_S12288x12288_1_0_0_1_n_n none z
      (transpose S128x12288 [1, 0] z transposes_S12288x128_S128x12288_1_0) (ix2 p q)) = _
  refine congrArg FloatOps.logistic ?_
  refine (Cert.Lib.PlainDot.plain_dotGeneral_apply (M := 12288) (K := 128) (N := 12288)
    dot_S12288x128_S128x12288_S12288x12288_1_0_0_1_n_n rfl none z
    (transpose S128x12288 [1, 0] z transposes_S12288x128_S128x12288_1_0) p q).trans ?_
  exact Finset.sum_congr rfl fun c _ => congrArg (z (ix2 p c) * ·) (transpose_entry z c q)

end Cert.Bridge

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibRowDots.lean ====
/-
  A matrix product that pairs the ROWS of its two operands, read at an entry, for any sizes.

  When the dimension numbers of a matrix product contract the second axis of an `a × k` left operand with the second
  axis of a `b × k` right operand (no batch axes; the first axis of each operand is kept), entry `(p, q)` of the
  `a × b` result, accumulated from zero, is the inner product of row `p` of the left operand with row `q` of the right
  one: the sum over the shared coordinate `c` of `A (p, c) * B (q, c)`, in the coordinate's order. This is the product
  of the left operand with the transpose of the right one, without a transpose being formed.
-/
import Idealize.ShloMosaic.Lib.Pipeline.Value
import Idealize.ShloMosaic.Lib.ValueIdx
import Idealize.ShloMosaic.PureOps.Ideal.Laws

noncomputable section

open scoped BigOperators

namespace Cert.Lib.RowDots

open Idealize.ShloMosaic Idealize.ShloMosaic.ValueIdx

variable {a b k : ℕ}

/-- A coordinate of an index read at two positions that are the same number. -/
theorem coord_congr {s : Shape} (j : s.Idx) (p q : ℕ) (hp : p < s.rank) (hq : q < s.rank) (h : p = q) :
    (j ⟨p, hp⟩).val = (j ⟨q, hq⟩).val := by subst h; rfl

/-- The left operand's entry paired with result entry `j`: its kept axis reads the result's first coordinate. -/
theorem lhs_kept (D : DotDims ⟨2, ![a, k]⟩ ⟨2, ![b, k]⟩ ⟨2, ![a, b]⟩) (hlb : D.lhsBatch = []) (hln : D.lhsNonContracting = [0])
    (j : (⟨2, ![a, b]⟩ : Shape).Idx) (c : D.contr.Idx) : (D.lhsIdx j c 0).val = (j 0).val := by
  unfold DotDims.lhsIdx
  rw [dif_neg (by rw [hlb]; exact List.not_mem_nil), dif_pos (by rw [hln]; exact List.mem_singleton.mpr rfl)]
  simp only [Fin.val_cast]
  exact coord_congr j _ 0 _ (show 0 < 2 by omega) (by simp [hlb, hln])

/-- The right operand's entry paired with result entry `j`: its kept axis reads the result's second coordinate. -/
theorem rhs_kept (D : DotDims ⟨2, ![a, k]⟩ ⟨2, ![b, k]⟩ ⟨2, ![a, b]⟩) (hlb : D.lhsBatch = []) (hln : D.lhsNonContracting = [0])
    (hrb : D.rhsBatch = []) (hrn : D.rhsNonContracting = [0])
    (j : (⟨2, ![a, b]⟩ : Shape).Idx) (c : D.contr.Idx) : (D.rhsIdx j c 0).val = (j 1).val := by
  unfold DotDims.rhsIdx
  rw [dif_neg (by rw [hrb]; exact List.not_mem_nil), dif_pos (by rw [hrn]; exact List.mem_singleton.mpr rfl)]
  simp only [Fin.val_cast]
  exact coord_congr j _ 1 _ (show 1 < 2 by omega) (by simp [hlb, hln, hrn])

/-- Entry `(p, q)` of a product from zero that contracts the second axis of both operands: row `p` of the left
    operand against row `q` of the right one. -/
theorem matmul_rows_apply {φ₁ φ₂ : FTy} (D : DotDims ⟨2, ![a, k]⟩ ⟨2, ![b, k]⟩ ⟨2, ![a, b]⟩)
    (hlb : D.lhsBatch = []) (hln : D.lhsNonContracting = [0]) (hlc : D.lhsContracting = [1])
    (hrb : D.rhsBatch = []) (hrn : D.rhsNonContracting = [0]) (hrc : D.rhsContracting = [1])
    (hrank : D.contr.rank = 1) (hsize : D.contr.size ⟨0, by omega⟩ = k) (prec : Option ContractPrecision)
    (A : FVec Ideal ⟨2, ![a, k]⟩ φ₁) (B : FVec Ideal ⟨2, ![b, k]⟩ φ₂) (p : Fin a) (q : Fin b) :
    matmul D prec A B (constant ⟨2, ![a, b]⟩ .f32 0x00000000#32) (ix2 p q) = ∑ c : Fin k, A (ix2 p c) * B (ix2 q c) := by
  show FloatOps.matmul D prec A B _ (ix2 p q) = _
  rw [Ideal.matmul_constant_zero_apply, ← Equiv.sum_comp (contrEquiv1 D k hrank hsize).symm]
  refine Finset.sum_congr rfl fun c _ => ?_
  have hc := contrEquiv1_symm_val D k hrank hsize c
  have el : D.lhsIdx (ix2 p q) ((contrEquiv1 D k hrank hsize).symm c) = ix2 p c := funext fun ax => Fin.ext (by
    match ax with
    | ⟨0, _⟩ => exact lhs_kept D hlb hln _ _
    | ⟨1, _⟩ => exact (D.lhsIdx_val_of_single hlc _ _).trans hc)
  have er : D.rhsIdx (ix2 p q) ((contrEquiv1 D k hrank hsize).symm c) = ix2 q c := funext fun ax => Fin.ext (by
    match ax with
    | ⟨0, _⟩ => exact rhs_kept D hlb hln hrb hrn _ _
    | ⟨1, _⟩ => exact (D.rhsIdx_val_of_single hrc _ _).trans hc)
  rw [el, er]

end Cert.Lib.RowDots

end
-- ==== Proof.PayloadEntries.lean ====
/-
  The four kernel payloads read at one entry.

  Each payload rounds its two operands to a narrower format, may recast an operand to the shape it already has, and
  multiplies the operands into a zero accumulator; the last payload then applies the logistic function. Over the extended
  reals a change of format is the identity and a shape cast to the same shape is the identity, so the payload is the
  matrix product of the operands as given. Entry (p, q) of the first three is the textbook contraction: the sum over the
  shared index c of x0 (p, c) * x1 (c, q). The fourth contracts the second axis of BOTH operands, so its entry (p, q)
  pairs row p of x0 with row q of x1: the logistic function of the sum over c of x0 (p, c) * x1 (q, c).
-/
import proofs.«150485_j3504693313768_1_alg».proof.Proof.Gen.KernelIdeal.Skeleton
import proofs.«150485_j3504693313768_1_alg».proof.Proof.LibTwoBlocks
import proofs.«150485_j3504693313768_1_alg».proof.Proof.LibRowDots

noncomputable section

open scoped BigOperators

namespace Cert.Bridge

open Idealize.ShloMosaic Idealize.ShloMosaic.ValueIdx
open Cert.KernelIdeal Cert.KernelIdeal.Gen

/-- Entry (p, q) of the first payload, a 1536 x 512 by 512 x 256 product from zero: the sum over the shared index. -/
theorem pay0_entry (x0 : Vec Ideal S1536x512 .f32) (x1 : Vec Ideal S512x256 .f32) (p : Fin 1536) (q : Fin 256) :
    k0_pay1 (F := Ideal) x0 x1 (ix2 p q) = ∑ c : Fin 512, x0 (ix2 p c) * x1 (ix2 c q) :=
  Cert.Lib.TwoBlocks.plain_matmul_zero_apply (M := 1536) (K := 512) (N := 256) (φ₁ := .bf16) (φ₂ := .bf16)
    dot_S1536x512_S512x256_S1536x256_1_0_0_1_n_n rfl none x0 x1 p q

/-- Entry (p, q) of the second payload, a 1536 x 256 by 256 x 128 product from zero (its left operand recast to its own
    shape first): the sum over the shared index. -/
theorem pay1_entry (x0 : Vec Ideal S1536x256 .f32) (x1 : Vec Ideal S256x128 .f32) (p : Fin 1536) (q : Fin 128) :
    k1_pay1 (F := Ideal) x0 x1 (ix2 p q) = ∑ c : Fin 256, x0 (ix2 p c) * x1 (ix2 c q) := by
  have h : k1_pay1 (F := Ideal) x0 x1
      = matmul dot_S1536x256_S256x128_S1536x128_1_0_0_1_n_n none
          (truncf .bf16 (shapeCast S1536x256 x0 shapeCasts_S1536x256_S1536x256) bitsLt_bf16_f32)
          (truncf .bf16 x1 bitsLt_bf16_f32) (constant S1536x128 .f32 0x00000000#32) := rfl
  rw [h, shapeCast_self]
  exact Cert.Lib.TwoBlocks.plain_matmul_zero_apply (M := 1536) (K := 256) (N := 128) (φ₁ := .bf16) (φ₂ := .bf16)
    dot_S1536x256_S256x128_S1536x128_1_0_0_1_n_n rfl none x0 x1 p q

/-- Entry (p, q) of the third payload, the same product as the second's: the sum over the shared index. -/
theorem pay2_entry (x0 : Vec Ideal S1536x256 .f32) (x1 : Vec Ideal S256x128 .f32) (p : Fin 1536) (q : Fin 128) :
    k2_pay1 (F := Ideal) x0 x1 (ix2 p q) = ∑ c : Fin 256, x0 (ix2 p c) * x1 (ix2 c q) := by
  have h : k2_pay1 (F := Ideal) x0 x1
      = matmul dot_S1536x256_S256x128_S1536x128_1_0_0_1_n_n none
          (truncf .bf16 (shapeCast S1536x256 x0 shapeCasts_S1536x256_S1536x256) bitsLt_bf16_f32)
          (truncf .bf16 x1 bitsLt_bf16_f32) (constant S1536x128 .f32 0x00000000#32) := rfl
  rw [h, shapeCast_self]
  exact Cert.Lib.TwoBlocks.plain_matmul_zero_apply (M := 1536) (K := 256) (N := 128) (φ₁ := .bf16) (φ₂ := .bf16)
    dot_S1536x256_S256x128_S1536x128_1_0_0_1_n_n rfl none x0 x1 p q

/-- Entry (p, q) of the fourth payload: the logistic function of row p of the left operand against row q of the right
    one, both operands 1024 x 128 and contracted along their second axis. -/
theorem pay3_entry (x0 x1 : Vec Ideal S1024x128 .f32) (p q : Fin 1024) :
    k3_pay1 (F := Ideal) x0 x1 (ix2 p q) = FloatOps.logistic (∑ c : Fin 128, x0 (ix2 p c) * x1 (ix2 q c)) := by
  have h : k3_pay1 (F := Ideal) x0 x1
      = logistic (matmul dot_S1024x128_S1024x128_S1024x1024_1_1_0_0_n_n none
          (truncf .bf16 (shapeCast S1024x128 x0 shapeCasts_S1024x128_S1024x128) bitsLt_bf16_f32)
          (truncf .bf16 (shapeCast S1024x128 x1 shapeCasts_S1024x128_S1024x128) bitsLt_bf16_f32)
          (constant S1024x1024 .f32 0x00000000#32)) := rfl
  rw [h, shapeCast_self, shapeCast_self]
  show FloatOps.logistic (matmul dot_S1024x128_S1024x128_S1024x1024_1_1_0_0_n_n none
      (truncf (F := Ideal) .bf16 x0 bitsLt_bf16_f32) (truncf (F := Ideal) .bf16 x1 bitsLt_bf16_f32)
      (constant S1024x1024 .f32 0x00000000#32) (ix2 p q)) = _
  exact congrArg FloatOps.logistic
    (Cert.Lib.RowDots.matmul_rows_apply (a := 1024) (b := 1024) (k := 128) (φ₁ := .bf16) (φ₂ := .bf16)
      dot_S1024x128_S1024x128_S1024x1024_1_1_0_0_n_n rfl rfl rfl rfl rfl rfl rfl rfl none x0 x1 p q)

end Cert.Bridge

end
-- ==== Proof.FinalArray0.lean ====
/-
  Pipeline 0 of the program, from its blocks to its array. The grid has eight points; point t multiplies rows
  1536 t … 1536 t + 1535 of the left operand (a 12288 x 512 array) into the whole right operand (a 512 x 256 array)
  and writes the product back as the same rows of the result (a 12288 x 256 array). Each point's write-back is a block of
  ONE function of the two operand arrays, the matrix product entry by entry; the eight blocks tile the result, so after
  the last point the result array is that function: entry (p, q) is the sum over the shared index k of
  left (p, k) * right (k, q).
-/
import proofs.«150485_j3504693313768_1_alg».proof.Proof.KI.Region0
import proofs.«150485_j3504693313768_1_alg».proof.Proof.PayloadEntries
import Idealize.ShloMosaic.Lib.Pipeline.Value
import Idealize.ShloMosaic.Lib.ValueIdx

noncomputable section

open scoped BigOperators

namespace Cert.Bridge

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets0 : (![0, 0] : Fin 2 → Nat) = fun _ => 0 := funext fun a => by fin_cases a <;> rfl

/-- The matrix product of a 12288 x 512 array and a 512 x 256 array, entry by entry. -/
def matProduct0 (a0 : Vec Ideal S12288x512 .f32) (a1 : Vec Ideal S512x256 .f32) : Vec Ideal S12288x256 .f32 :=
  fun i => ∑ k : Fin 512, a0 (ix2 (⟨(i 0).val, idx2_lt0 i⟩ : Fin 12288) k) * a1 (ix2 k (⟨(i 1).val, idx2_lt1 i⟩ : Fin 256))

/-- Its entry at row p and column q. -/
theorem matProduct0_entry (a0 : Vec Ideal S12288x512 .f32) (a1 : Vec Ideal S512x256 .f32) (p : Fin 12288) (q : Fin 256) :
    matProduct0 a0 a1 (ix2 p q) = ∑ k : Fin 512, a0 (ix2 p k) * a1 (ix2 k q) := rfl

/-- The printed index maps, decided over the eight points: the left operand's row block is the result's, its column
    block the first; the right operand's block is the first on both axes; the result's column block is the first. -/
theorem block_indices0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 7
    ∧ win0_2.index t (1 : Fin 2) = 0 :=
  (by decide +kernel : ∀ t : Fin grid0.N, _)

/-- Every row block of the result is some point's. -/
theorem row_block_onto0 : ∀ b : Fin 8, ∃ t : Fin cfg0.N, win0_2.index t = ![b.val, 0] :=
  (by decide +kernel : ∀ b : Fin 8, ∃ t : Fin grid0.N, win0_2.index t = ![b.val, 0])

/-- The left operand's block at point t: its row p is the array's row (row block of t) * 1536 + p. -/
theorem left_block0 (c : Dev nD) (t : Fin cfg0.N) (p : Fin 1536) (k : Fin 512) (r : Fin 12288)
    (hr : r.val = win0_2.index t (0 : Fin 2) * 1536 + p.val) :
    (iblk0 V c 0 t : Vec Ideal S1536x512 .f32) (ix2 p k) = (V c main_arg0 : Vec Ideal S12288x512 .f32) (ix2 r k) := by
  obtain ⟨e0, e1, e2, e3, e4, e5⟩ := block_indices0 t
  unfold iblk0
  rw [View.read_apply]
  show V c main_arg0 (((cfg0.win 0).blk t).view.emb (ix2 p k)) = V c main_arg0 (ix2 r k)
  refine congrArg (V c main_arg0) ?_
  funext a
  apply Fin.ext
  match a with
  | ⟨0, _⟩ => show win0_0.index t (0 : Fin 2) * 1536 + 1 * p.val = r.val; omega
  | ⟨1, _⟩ => show win0_0.index t (1 : Fin 2) * 512 + 1 * k.val = k.val; omega

/-- The right operand's block at any point is the whole array. -/
theorem right_block0 (c : Dev nD) (t : Fin cfg0.N) (k : Fin 512) (q : Fin 256) :
    (iblk0 V c 1 t : Vec Ideal S512x256 .f32) (ix2 k q) = (V c main_arg4 : Vec Ideal S512x256 .f32) (ix2 k q) := by
  obtain ⟨e0, e1, e2, e3, e4, e5⟩ := block_indices0 t
  unfold iblk0
  rw [View.read_apply]
  show V c main_arg4 (((cfg0.win 1).blk t).view.emb (ix2 k q)) = V c main_arg4 (ix2 k q)
  refine congrArg (V c main_arg4) ?_
  funext a
  apply Fin.ext
  match a with
  | ⟨0, _⟩ => show win0_1.index t (0 : Fin 2) * 512 + 1 * k.val = k.val; omega
  | ⟨1, _⟩ => show win0_1.index t (1 : Fin 2) * 256 + 1 * q.val = q.val; omega

/-- One entry of what a point computes: when the two staged blocks are the operands' blocks at point t, the product of
    the blocks at (p, q) is the product of the arrays at the entry of the result that (p, q) of block t is. -/
theorem point_entry0 (c : Dev nD) (t : Fin cfg0.N) (x0 : Vec Ideal S1536x512 .f32) (x1 : Vec Ideal S512x256 .f32)
    (hx0 : ∀ (p : Fin 1536) (k : Fin 512) (r : Fin 12288), r.val = win0_2.index t (0 : Fin 2) * 1536 + p.val →
      x0 (ix2 p k) = (V c main_arg0 : Vec Ideal S12288x512 .f32) (ix2 r k))
    (hx1 : ∀ (k : Fin 512) (q : Fin 256), x1 (ix2 k q) = (V c main_arg4 : Vec Ideal S512x256 .f32) (ix2 k q))
    (y : S1536x256.Idx) (i : S12288x256.Idx)
    (h0 : (i 0).val = win0_2.index t (0 : Fin 2) * 1536 + (y 0).val) (h1 : (i 1).val = (y 1).val) :
    k0_pay1 (F := Ideal) x0 x1 y = matProduct0 (V c main_arg0) (V c main_arg4) i := by
  obtain ⟨p, q, rfl⟩ : ∃ (p : Fin 1536) (q : Fin 256), y = ix2 p q := ⟨y 0, y 1, eq_ix2 y⟩
  obtain ⟨r, s, rfl⟩ : ∃ (r : Fin 12288) (s : Fin 256), i = ix2 r s := ⟨i 0, i 1, eq_ix2 i⟩
  have h0' : r.val = win0_2.index t (0 : Fin 2) * 1536 + p.val := h0
  have h1' : s = q := Fin.ext h1
  subst h1'
  rw [pay0_entry, matProduct0_entry]
  refine Finset.sum_congr rfl fun k _ => ?_
  rw [hx0 p k r h0', hx1 k s]

/-- What point t writes back is block t of the product of the two operand arrays as the region finds them. -/
theorem flushed_product0 (c : Dev nD) (t : Fin cfg0.N) :
    (dat0 V c).flushed 2 t = ((cfg0.win 2).blk t).view.read (Elt Ideal) (matProduct0 (V c main_arg0) (V c main_arg4)) := by
  show (cfg0.win 2).cut (grid0.coords t) ((dat0 V c).after 2 t) = _
  rw [after0_2]
  unfold out0_2
  rw [View.canon_unit_zero zero_offsets0]
  simp only [View.ld_unit_zero (S := S1536x512) zero_offsets0, View.ld_unit_zero (S := S512x256) zero_offsets0]
  funext j
  show k0_pay1 (F := Ideal) (iblk0 V c 0 t) (iblk0 V c 1 t) ((cfg0.win 2).xinj (grid0.coords t) j)
    = matProduct0 (V c main_arg0) (V c main_arg4) (((cfg0.win 2).blk t).view.emb j)
  refine point_entry0 V c t _ _ (fun p k r hr => left_block0 V c t p k r hr) (fun k q => right_block0 V c t k q) _ _ ?_ ?_
  · show win0_2.index t (0 : Fin 2) * 1536 + 1 * (j 0).val = win0_2.index t (0 : Fin 2) * 1536 + (j 0).val
    omega
  · obtain ⟨e0, e1, e2, e3, e4, e5⟩ := block_indices0 t
    show win0_2.index t (1 : Fin 2) * 256 + 1 * (j 1).val = (j 1).val
    omega

/-- An index of the result is in point t's block iff each coordinate is in the block's range on its axis. -/
theorem mem_block0 (t : Fin cfg0.N) (i : S12288x256.Idx) :
    i ∈ ((cfg0.win 2).blk t).view.set ↔ ∀ a : Fin 2, win0_2.index t a * S1536x256.size a ≤ (i a).val ∧ (i a).val < win0_2.index t a * S1536x256.size a + S1536x256.size a := by
  show i ∈ ((View.whole main_v0).slice (win0_2.rect t)).set ↔ _
  rw [View.set_slice_whole, Rect.mem_set_unit]
  exact Iff.rfl

/-- Every index of the result is in some point's block: row r is in row block r / 1536. -/
theorem blocks_cover0 (i : S12288x256.Idx) :
    ∃ t : Fin cfg0.N, (cfg0.win 2).flush t = true ∧ i ∈ ((cfg0.win 2).blk t).view.set := by
  have hi0 : (i 0).val < 12288 := (i 0).isLt
  have hi1 : (i 1).val < 256 := (i 1).isLt
  obtain ⟨t, ht⟩ := row_block_onto0 ⟨(i 0).val / 1536, by omega⟩
  have q0 : win0_2.index t (0 : Fin 2) = (i 0).val / 1536 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 1536 ≤ (i 0).val ∧ (i 0).val < win0_2.index t (0 : Fin 2) * 1536 + 1536; omega
  | ⟨1, _⟩ => show win0_2.index t (1 : Fin 2) * 256 ≤ (i 1).val ∧ (i 1).val < win0_2.index t (1 : Fin 2) * 256 + 256; omega

/-- The result array after the last point is the product of the two operand arrays. -/
theorem final_array0 (c : Dev nD) : (dat0 V c).arrAt 2 cfg0.N = matProduct0 (V c main_arg0) (V c main_arg4) :=
  (dat0 V c).arrAt_eq_of_cover 2 (matProduct0 (V c main_arg0) (V c main_arg4)) (fun t _ => flushed_product0 V c t) blocks_cover0

/-- Entry (p, q) of the result array after the last point: the sum over the shared index k of left (p, k) * right (k, q),
    the two operand arrays named at their literal types. -/
theorem final0 (c : Dev nD) (a0 : Vec Ideal S12288x512 .f32) (a1 : Vec Ideal S512x256 .f32)
    (h0 : a0 = V c main_arg0) (h1 : a1 = V c main_arg4) (p : Fin 12288) (q : Fin 256) :
    (dat0 V c).arrAt 2 cfg0.N (ix2 p q) = ∑ k : Fin 512, a0 (ix2 p k) * a1 (ix2 k q) := by
  subst h0 h1
  exact congrFun (final_array0 V c) (ix2 p q)

end Cert.Bridge

end
-- ==== Proof.FinalArray1.lean ====
/-
  Pipeline 1 of the program, from its blocks to its array. The grid has eight points; point t multiplies rows
  1536 t … 1536 t + 1535 of the left operand (a 12288 x 256 array) into the whole right operand (a 256 x 128 array)
  and writes the product back as the same rows of the result (a 12288 x 128 array). Each point's write-back is a block of
  ONE function of the two operand arrays, the matrix product entry by entry; the eight blocks tile the result, so after
  the last point the result array is that function: entry (p, q) is the sum over the shared index k of
  left (p, k) * right (k, q).
-/
import proofs.«150485_j3504693313768_1_alg».proof.Proof.KI.Region1
import proofs.«150485_j3504693313768_1_alg».proof.Proof.PayloadEntries
import Idealize.ShloMosaic.Lib.Pipeline.Value
import Idealize.ShloMosaic.Lib.ValueIdx

noncomputable section

open scoped BigOperators

namespace Cert.Bridge

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets1 : (![0, 0] : Fin 2 → Nat) = fun _ => 0 := funext fun a => by fin_cases a <;> rfl

/-- The matrix product of a 12288 x 256 array and a 256 x 128 array, entry by entry. -/
def matProduct1 (a0 : Vec Ideal S12288x256 .f32) (a1 : Vec Ideal S256x128 .f32) : Vec Ideal S12288x128 .f32 :=
  fun i => ∑ k : Fin 256, a0 (ix2 (⟨(i 0).val, idx2_lt0 i⟩ : Fin 12288) k) * a1 (ix2 k (⟨(i 1).val, idx2_lt1 i⟩ : Fin 128))

/-- Its entry at row p and column q. -/
theorem matProduct1_entry (a0 : Vec Ideal S12288x256 .f32) (a1 : Vec Ideal S256x128 .f32) (p : Fin 12288) (q : Fin 128) :
    matProduct1 a0 a1 (ix2 p q) = ∑ k : Fin 256, a0 (ix2 p k) * a1 (ix2 k q) := rfl

/-- The printed index maps, decided over the eight points: the left operand's row block is the result's, its column
    block the first; the right operand's block is the first on both axes; the result's column block is the first. -/
theorem block_indices1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 7
    ∧ win1_2.index t (1 : Fin 2) = 0 :=
  (by decide +kernel : ∀ t : Fin grid1.N, _)

/-- Every row block of the result is some point's. -/
theorem row_block_onto1 : ∀ b : Fin 8, ∃ t : Fin cfg1.N, win1_2.index t = ![b.val, 0] :=
  (by decide +kernel : ∀ b : Fin 8, ∃ t : Fin grid1.N, win1_2.index t = ![b.val, 0])

/-- The left operand's block at point t: its row p is the array's row (row block of t) * 1536 + p. -/
theorem left_block1 (c : Dev nD) (t : Fin cfg1.N) (p : Fin 1536) (k : Fin 256) (r : Fin 12288)
    (hr : r.val = win1_2.index t (0 : Fin 2) * 1536 + p.val) :
    (iblk1 V c 0 t : Vec Ideal S1536x256 .f32) (ix2 p k) = (V c main_v14 : Vec Ideal S12288x256 .f32) (ix2 r k) := by
  obtain ⟨e0, e1, e2, e3, e4, e5⟩ := block_indices1 t
  unfold iblk1
  rw [View.read_apply]
  show V c main_v14 (((cfg1.win 0).blk t).view.emb (ix2 p k)) = V c main_v14 (ix2 r k)
  refine congrArg (V c main_v14) ?_
  funext a
  apply Fin.ext
  match a with
  | ⟨0, _⟩ => show win1_0.index t (0 : Fin 2) * 1536 + 1 * p.val = r.val; omega
  | ⟨1, _⟩ => show win1_0.index t (1 : Fin 2) * 256 + 1 * k.val = k.val; omega

/-- The right operand's block at any point is the whole array. -/
theorem right_block1 (c : Dev nD) (t : Fin cfg1.N) (k : Fin 256) (q : Fin 128) :
    (iblk1 V c 1 t : Vec Ideal S256x128 .f32) (ix2 k q) = (V c main_arg5 : Vec Ideal S256x128 .f32) (ix2 k q) := by
  obtain ⟨e0, e1, e2, e3, e4, e5⟩ := block_indices1 t
  unfold iblk1
  rw [View.read_apply]
  show V c main_arg5 (((cfg1.win 1).blk t).view.emb (ix2 k q)) = V c main_arg5 (ix2 k q)
  refine congrArg (V c main_arg5) ?_
  funext a
  apply Fin.ext
  match a with
  | ⟨0, _⟩ => show win1_1.index t (0 : Fin 2) * 256 + 1 * k.val = k.val; omega
  | ⟨1, _⟩ => show win1_1.index t (1 : Fin 2) * 128 + 1 * q.val = q.val; omega

/-- One entry of what a point computes: when the two staged blocks are the operands' blocks at point t, the product of
    the blocks at (p, q) is the product of the arrays at the entry of the result that (p, q) of block t is. -/
theorem point_entry1 (c : Dev nD) (t : Fin cfg1.N) (x0 : Vec Ideal S1536x256 .f32) (x1 : Vec Ideal S256x128 .f32)
    (hx0 : ∀ (p : Fin 1536) (k : Fin 256) (r : Fin 12288), r.val = win1_2.index t (0 : Fin 2) * 1536 + p.val →
      x0 (ix2 p k) = (V c main_v14 : Vec Ideal S12288x256 .f32) (ix2 r k))
    (hx1 : ∀ (k : Fin 256) (q : Fin 128), x1 (ix2 k q) = (V c main_arg5 : Vec Ideal S256x128 .f32) (ix2 k q))
    (y : S1536x128.Idx) (i : S12288x128.Idx)
    (h0 : (i 0).val = win1_2.index t (0 : Fin 2) * 1536 + (y 0).val) (h1 : (i 1).val = (y 1).val) :
    k1_pay1 (F := Ideal) x0 x1 y = matProduct1 (V c main_v14) (V c main_arg5) i := by
  obtain ⟨p, q, rfl⟩ : ∃ (p : Fin 1536) (q : Fin 128), y = ix2 p q := ⟨y 0, y 1, eq_ix2 y⟩
  obtain ⟨r, s, rfl⟩ : ∃ (r : Fin 12288) (s : Fin 128), i = ix2 r s := ⟨i 0, i 1, eq_ix2 i⟩
  have h0' : r.val = win1_2.index t (0 : Fin 2) * 1536 + p.val := h0
  have h1' : s = q := Fin.ext h1
  subst h1'
  rw [pay1_entry, matProduct1_entry]
  refine Finset.sum_congr rfl fun k _ => ?_
  rw [hx0 p k r h0', hx1 k s]

/-- What point t writes back is block t of the product of the two operand arrays as the region finds them. -/
theorem flushed_product1 (c : Dev nD) (t : Fin cfg1.N) :
    (dat1 V c).flushed 2 t = ((cfg1.win 2).blk t).view.read (Elt Ideal) (matProduct1 (V c main_v14) (V c main_arg5)) := by
  show (cfg1.win 2).cut (grid1.coords t) ((dat1 V c).after 2 t) = _
  rw [after1_2]
  unfold out1_2
  rw [View.canon_unit_zero zero_offsets1]
  simp only [View.ld_unit_zero (S := S1536x256) zero_offsets1, View.ld_unit_zero (S := S256x128) zero_offsets1]
  funext j
  show k1_pay1 (F := Ideal) (iblk1 V c 0 t) (iblk1 V c 1 t) ((cfg1.win 2).xinj (grid1.coords t) j)
    = matProduct1 (V c main_v14) (V c main_arg5) (((cfg1.win 2).blk t).view.emb j)
  refine point_entry1 V c t _ _ (fun p k r hr => left_block1 V c t p k r hr) (fun k q => right_block1 V c t k q) _ _ ?_ ?_
  · show win1_2.index t (0 : Fin 2) * 1536 + 1 * (j 0).val = win1_2.index t (0 : Fin 2) * 1536 + (j 0).val
    omega
  · obtain ⟨e0, e1, e2, e3, e4, e5⟩ := block_indices1 t
    show win1_2.index t (1 : Fin 2) * 128 + 1 * (j 1).val = (j 1).val
    omega

/-- An index of the result is in point t's block iff each coordinate is in the block's range on its axis. -/
theorem mem_block1 (t : Fin cfg1.N) (i : S12288x128.Idx) :
    i ∈ ((cfg1.win 2).blk t).view.set ↔ ∀ a : Fin 2, win1_2.index t a * S1536x128.size a ≤ (i a).val ∧ (i a).val < win1_2.index t a * S1536x128.size a + S1536x128.size a := by
  show i ∈ ((View.whole main_v15).slice (win1_2.rect t)).set ↔ _
  rw [View.set_slice_whole, Rect.mem_set_unit]
  exact Iff.rfl

/-- Every index of the result is in some point's block: row r is in row block r / 1536. -/
theorem blocks_cover1 (i : S12288x128.Idx) :
    ∃ t : Fin cfg1.N, (cfg1.win 2).flush t = true ∧ i ∈ ((cfg1.win 2).blk t).view.set := by
  have hi0 : (i 0).val < 12288 := (i 0).isLt
  have hi1 : (i 1).val < 128 := (i 1).isLt
  obtain ⟨t, ht⟩ := row_block_onto1 ⟨(i 0).val / 1536, by omega⟩
  have q0 : win1_2.index t (0 : Fin 2) = (i 0).val / 1536 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 1536 ≤ (i 0).val ∧ (i 0).val < win1_2.index t (0 : Fin 2) * 1536 + 1536; omega
  | ⟨1, _⟩ => show win1_2.index t (1 : Fin 2) * 128 ≤ (i 1).val ∧ (i 1).val < win1_2.index t (1 : Fin 2) * 128 + 128; omega

/-- The result array after the last point is the product of the two operand arrays. -/
theorem final_array1 (c : Dev nD) : (dat1 V c).arrAt 2 cfg1.N = matProduct1 (V c main_v14) (V c main_arg5) :=
  (dat1 V c).arrAt_eq_of_cover 2 (matProduct1 (V c main_v14) (V c main_arg5)) (fun t _ => flushed_product1 V c t) blocks_cover1

/-- Entry (p, q) of the result array after the last point: the sum over the shared index k of left (p, k) * right (k, q),
    the two operand arrays named at their literal types. -/
theorem final1 (c : Dev nD) (a0 : Vec Ideal S12288x256 .f32) (a1 : Vec Ideal S256x128 .f32)
    (h0 : a0 = V c main_v14) (h1 : a1 = V c main_arg5) (p : Fin 12288) (q : Fin 128) :
    (dat1 V c).arrAt 2 cfg1.N (ix2 p q) = ∑ k : Fin 256, a0 (ix2 p k) * a1 (ix2 k q) := by
  subst h0 h1
  exact congrFun (final_array1 V c) (ix2 p q)

end Cert.Bridge

end
-- ==== Proof.FinalArray2.lean ====
/-
  Pipeline 2 of the program, from its blocks to its array. The grid has eight points; point t multiplies rows
  1536 t … 1536 t + 1535 of the left operand (a 12288 x 256 array) into the whole right operand (a 256 x 128 array)
  and writes the product back as the same rows of the result (a 12288 x 128 array). Each point's write-back is a block of
  ONE function of the two operand arrays, the matrix product entry by entry; the eight blocks tile the result, so after
  the last point the result array is that function: entry (p, q) is the sum over the shared index k of
  left (p, k) * right (k, q).
-/
import proofs.«150485_j3504693313768_1_alg».proof.Proof.KI.Region2
import proofs.«150485_j3504693313768_1_alg».proof.Proof.PayloadEntries
import Idealize.ShloMosaic.Lib.Pipeline.Value
import Idealize.ShloMosaic.Lib.ValueIdx

noncomputable section

open scoped BigOperators

namespace Cert.Bridge

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets2 : (![0, 0] : Fin 2 → Nat) = fun _ => 0 := funext fun a => by fin_cases a <;> rfl

/-- The matrix product of a 12288 x 256 array and a 256 x 128 array, entry by entry. -/
def matProduct2 (a0 : Vec Ideal S12288x256 .f32) (a1 : Vec Ideal S256x128 .f32) : Vec Ideal S12288x128 .f32 :=
  fun i => ∑ k : Fin 256, a0 (ix2 (⟨(i 0).val, idx2_lt0 i⟩ : Fin 12288) k) * a1 (ix2 k (⟨(i 1).val, idx2_lt1 i⟩ : Fin 128))

/-- Its entry at row p and column q. -/
theorem matProduct2_entry (a0 : Vec Ideal S12288x256 .f32) (a1 : Vec Ideal S256x128 .f32) (p : Fin 12288) (q : Fin 128) :
    matProduct2 a0 a1 (ix2 p q) = ∑ k : Fin 256, a0 (ix2 p k) * a1 (ix2 k q) := rfl

/-- The printed index maps, decided over the eight points: the left operand's row block is the result's, its column
    block the first; the right operand's block is the first on both axes; the result's column block is the first. -/
theorem block_indices2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 7
    ∧ win2_2.index t (1 : Fin 2) = 0 :=
  (by decide +kernel : ∀ t : Fin grid2.N, _)

/-- Every row block of the result is some point's. -/
theorem row_block_onto2 : ∀ b : Fin 8, ∃ t : Fin cfg2.N, win2_2.index t = ![b.val, 0] :=
  (by decide +kernel : ∀ b : Fin 8, ∃ t : Fin grid2.N, win2_2.index t = ![b.val, 0])

/-- The left operand's block at point t: its row p is the array's row (row block of t) * 1536 + p. -/
theorem left_block2 (c : Dev nD) (t : Fin cfg2.N) (p : Fin 1536) (k : Fin 256) (r : Fin 12288)
    (hr : r.val = win2_2.index t (0 : Fin 2) * 1536 + p.val) :
    (iblk2 V c 0 t : Vec Ideal S1536x256 .f32) (ix2 p k) = (V c main_v14 : Vec Ideal S12288x256 .f32) (ix2 r k) := by
  obtain ⟨e0, e1, e2, e3, e4, e5⟩ := block_indices2 t
  unfold iblk2
  rw [View.read_apply]
  show V c main_v14 (((cfg2.win 0).blk t).view.emb (ix2 p k)) = V c main_v14 (ix2 r k)
  refine congrArg (V c main_v14) ?_
  funext a
  apply Fin.ext
  match a with
  | ⟨0, _⟩ => show win2_0.index t (0 : Fin 2) * 1536 + 1 * p.val = r.val; omega
  | ⟨1, _⟩ => show win2_0.index t (1 : Fin 2) * 256 + 1 * k.val = k.val; omega

/-- The right operand's block at any point is the whole array. -/
theorem right_block2 (c : Dev nD) (t : Fin cfg2.N) (k : Fin 256) (q : Fin 128) :
    (iblk2 V c 1 t : Vec Ideal S256x128 .f32) (ix2 k q) = (V c main_arg6 : Vec Ideal S256x128 .f32) (ix2 k q) := by
  obtain ⟨e0, e1, e2, e3, e4, e5⟩ := block_indices2 t
  unfold iblk2
  rw [View.read_apply]
  show V c main_arg6 (((cfg2.win 1).blk t).view.emb (ix2 k q)) = V c main_arg6 (ix2 k q)
  refine congrArg (V c main_arg6) ?_
  funext a
  apply Fin.ext
  match a with
  | ⟨0, _⟩ => show win2_1.index t (0 : Fin 2) * 256 + 1 * k.val = k.val; omega
  | ⟨1, _⟩ => show win2_1.index t (1 : Fin 2) * 128 + 1 * q.val = q.val; omega

/-- One entry of what a point computes: when the two staged blocks are the operands' blocks at point t, the product of
    the blocks at (p, q) is the product of the arrays at the entry of the result that (p, q) of block t is. -/
theorem point_entry2 (c : Dev nD) (t : Fin cfg2.N) (x0 : Vec Ideal S1536x256 .f32) (x1 : Vec Ideal S256x128 .f32)
    (hx0 : ∀ (p : Fin 1536) (k : Fin 256) (r : Fin 12288), r.val = win2_2.index t (0 : Fin 2) * 1536 + p.val →
      x0 (ix2 p k) = (V c main_v14 : Vec Ideal S12288x256 .f32) (ix2 r k))
    (hx1 : ∀ (k : Fin 256) (q : Fin 128), x1 (ix2 k q) = (V c main_arg6 : Vec Ideal S256x128 .f32) (ix2 k q))
    (y : S1536x128.Idx) (i : S12288x128.Idx)
    (h0 : (i 0).val = win2_2.index t (0 : Fin 2) * 1536 + (y 0).val) (h1 : (i 1).val = (y 1).val) :
    k2_pay1 (F := Ideal) x0 x1 y = matProduct2 (V c main_v14) (V c main_arg6) i := by
  obtain ⟨p, q, rfl⟩ : ∃ (p : Fin 1536) (q : Fin 128), y = ix2 p q := ⟨y 0, y 1, eq_ix2 y⟩
  obtain ⟨r, s, rfl⟩ : ∃ (r : Fin 12288) (s : Fin 128), i = ix2 r s := ⟨i 0, i 1, eq_ix2 i⟩
  have h0' : r.val = win2_2.index t (0 : Fin 2) * 1536 + p.val := h0
  have h1' : s = q := Fin.ext h1
  subst h1'
  rw [pay2_entry, matProduct2_entry]
  refine Finset.sum_congr rfl fun k _ => ?_
  rw [hx0 p k r h0', hx1 k s]

/-- What point t writes back is block t of the product of the two operand arrays as the region finds them. -/
theorem flushed_product2 (c : Dev nD) (t : Fin cfg2.N) :
    (dat2 V c).flushed 2 t = ((cfg2.win 2).blk t).view.read (Elt Ideal) (matProduct2 (V c main_v14) (V c main_arg6)) := by
  show (cfg2.win 2).cut (grid2.coords t) ((dat2 V c).after 2 t) = _
  rw [after2_2]
  unfold out2_2
  rw [View.canon_unit_zero zero_offsets2]
  simp only [View.ld_unit_zero (S := S1536x256) zero_offsets2, View.ld_unit_zero (S := S256x128) zero_offsets2]
  funext j
  show k2_pay1 (F := Ideal) (iblk2 V c 0 t) (iblk2 V c 1 t) ((cfg2.win 2).xinj (grid2.coords t) j)
    = matProduct2 (V c main_v14) (V c main_arg6) (((cfg2.win 2).blk t).view.emb j)
  refine point_entry2 V c t _ _ (fun p k r hr => left_block2 V c t p k r hr) (fun k q => right_block2 V c t k q) _ _ ?_ ?_
  · show win2_2.index t (0 : Fin 2) * 1536 + 1 * (j 0).val = win2_2.index t (0 : Fin 2) * 1536 + (j 0).val
    omega
  · obtain ⟨e0, e1, e2, e3, e4, e5⟩ := block_indices2 t
    show win2_2.index t (1 : Fin 2) * 128 + 1 * (j 1).val = (j 1).val
    omega

/-- An index of the result is in point t's block iff each coordinate is in the block's range on its axis. -/
theorem mem_block2 (t : Fin cfg2.N) (i : S12288x128.Idx) :
    i ∈ ((cfg2.win 2).blk t).view.set ↔ ∀ a : Fin 2, win2_2.index t a * S1536x128.size a ≤ (i a).val ∧ (i a).val < win2_2.index t a * S1536x128.size a + S1536x128.size a := by
  show i ∈ ((View.whole main_v29).slice (win2_2.rect t)).set ↔ _
  rw [View.set_slice_whole, Rect.mem_set_unit]
  exact Iff.rfl

/-- Every index of the result is in some point's block: row r is in row block r / 1536. -/
theorem blocks_cover2 (i : S12288x128.Idx) :
    ∃ t : Fin cfg2.N, (cfg2.win 2).flush t = true ∧ i ∈ ((cfg2.win 2).blk t).view.set := by
  have hi0 : (i 0).val < 12288 := (i 0).isLt
  have hi1 : (i 1).val < 128 := (i 1).isLt
  obtain ⟨t, ht⟩ := row_block_onto2 ⟨(i 0).val / 1536, by omega⟩
  have q0 : win2_2.index t (0 : Fin 2) = (i 0).val / 1536 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 1536 ≤ (i 0).val ∧ (i 0).val < win2_2.index t (0 : Fin 2) * 1536 + 1536; omega
  | ⟨1, _⟩ => show win2_2.index t (1 : Fin 2) * 128 ≤ (i 1).val ∧ (i 1).val < win2_2.index t (1 : Fin 2) * 128 + 128; omega

/-- The result array after the last point is the product of the two operand arrays. -/
theorem final_array2 (c : Dev nD) : (dat2 V c).arrAt 2 cfg2.N = matProduct2 (V c main_v14) (V c main_arg6) :=
  (dat2 V c).arrAt_eq_of_cover 2 (matProduct2 (V c main_v14) (V c main_arg6)) (fun t _ => flushed_product2 V c t) blocks_cover2

/-- Entry (p, q) of the result array after the last point: the sum over the shared index k of left (p, k) * right (k, q),
    the two operand arrays named at their literal types. -/
theorem final2 (c : Dev nD) (a0 : Vec Ideal S12288x256 .f32) (a1 : Vec Ideal S256x128 .f32)
    (h0 : a0 = V c main_v14) (h1 : a1 = V c main_arg6) (p : Fin 12288) (q : Fin 128) :
    (dat2 V c).arrAt 2 cfg2.N (ix2 p q) = ∑ k : Fin 256, a0 (ix2 p k) * a1 (ix2 k q) := by
  subst h0 h1
  exact congrFun (final_array2 V c) (ix2 p q)

end Cert.Bridge

end
-- ==== Proof.FinalArray3.lean ====
/-
  Pipeline 3 (the decoder), from blocks to the array. Point (i, j) of the 12 x 12 grid reads row block i and row block j
  of the latent table (1024 rows of 128 each) and writes block (i, j), 1024 x 1024, of the result: entry (r, s) of that
  block is the logistic function of the inner product of row r of the first block with row s of the second. Row r of row
  block i is row i * 1024 + r of the table, so each block written is a block of ONE function of the table,
  (p, q) |-> logistic (sum over k of z (p, k) * z (q, k)); the 144 blocks tile the 12288 x 12288 result (entry (p, q) lies
  in block (p / 1024, q / 1024)), so after the region the result is that function everywhere.
-/
import proofs.«150485_j3504693313768_1_alg».proof.Proof.KI.Region3
import proofs.«150485_j3504693313768_1_alg».proof.Proof.PayloadEntries
import Idealize.ShloMosaic.Lib.Pipeline.Value
import Idealize.ShloMosaic.Lib.ValueIdx

noncomputable section

open scoped BigOperators

namespace Cert.Bridge

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as the constant function. -/
theorem zero_offsets3 : (![0, 0] : Fin 2 → Nat) = fun _ => 0 := funext fun a => by fin_cases a <;> rfl

/-- Entry (p, q) of the decoded matrix of a latent table z: the logistic function of the inner product of rows p and q. -/
def decoded (z : Vec Ideal S12288x128 .f32) (p q : Fin 12288) : Elt Ideal .f32 :=
  FloatOps.logistic (F := Ideal) (φ := .f32) (∑ k : Fin 128, z (ix2 p k) * z (ix2 q k))

/-- The decoded matrix as an array: what the result ends holding. -/
abbrev decodedArray (z : Vec Ideal S12288x128 .f32) : Vec Ideal S12288x12288 .f32 :=
  fun i => decoded z (i 0) (i 1)

/-- The printed index maps, decided over the grid: the first input window's row block is the output's row block, the
    second input window's row block is the output's COLUMN block, both input windows stay at column block 0, and the
    output's block indices are below 12. -/
theorem block_indices3 : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0
    ∧ win3_2.index t (0 : Fin 2) ≤ 11
    ∧ win3_2.index t (1 : Fin 2) ≤ 11 :=
  (by decide +kernel : ∀ t : Fin grid3.N, _)

/-- Every block (a, b) of the 12 x 12 blocks of the result is some point's. -/
theorem block_onto3 : ∀ (a b : Fin 12), ∃ t : Fin cfg3.N, win3_2.index t = ![a.val, b.val] :=
  (by decide +kernel : ∀ (a b : Fin 12), ∃ t : Fin grid3.N, win3_2.index t = ![a.val, b.val])

/-- Entry (r, k) of the first input window's block at point t is entry (P, k) of the latent table, P being row r of
    the output's ROW block: the block's row index is the output's, its column block is 0. -/
theorem iblk3_0_entry (c : Dev nD) (t : Fin cfg3.N) (r : Fin 1024) (k : Fin 128) (P : Fin 12288)
    (hP : P.val = win3_2.index t (0 : Fin 2) * 1024 + r.val) :
    (iblk3 V c 0 t : Vec Ideal S1024x128 .f32) (ix2 r k) = (V c main_v28 : Vec Ideal S12288x128 .f32) (ix2 P k) := by
  obtain ⟨e0, e1, e2, e3, e4, e5⟩ := block_indices3 t
  show V c main_v28 (((cfg3.win 0).blk t).view.emb (ix2 r k)) = V c main_v28 (ix2 P k)
  refine congrArg (V c main_v28) ?_
  funext a; apply Fin.ext
  match a with
  | ⟨0, _⟩ => show win3_0.index t (0 : Fin 2) * 1024 + 1 * r.val = P.val; omega
  | ⟨1, _⟩ => show win3_0.index t (1 : Fin 2) * 128 + 1 * k.val = k.val; omega

/-- Entry (s, k) of the second input window's block at point t is entry (Q, k) of the SAME table, Q being row s of the
    output's COLUMN block. -/
theorem iblk3_1_entry (c : Dev nD) (t : Fin cfg3.N) (s : Fin 1024) (k : Fin 128) (Q : Fin 12288)
    (hQ : Q.val = win3_2.index t (1 : Fin 2) * 1024 + s.val) :
    (iblk3 V c 1 t : Vec Ideal S1024x128 .f32) (ix2 s k) = (V c main_v28 : Vec Ideal S12288x128 .f32) (ix2 Q k) := by
  obtain ⟨e0, e1, e2, e3, e4, e5⟩ := block_indices3 t
  show V c main_v28 (((cfg3.win 1).blk t).view.emb (ix2 s k)) = V c main_v28 (ix2 Q k)
  refine congrArg (V c main_v28) ?_
  funext a; apply Fin.ext
  match a with
  | ⟨0, _⟩ => show win3_1.index t (0 : Fin 2) * 1024 + 1 * s.val = Q.val; omega
  | ⟨1, _⟩ => show win3_1.index t (1 : Fin 2) * 128 + 1 * k.val = k.val; omega

/-- Entry (r, s) of what the body leaves for point t is entry (P, Q) of the decoded matrix, P and Q the rows r and s of
    the output's row block and column block. -/
theorem block_entry3 (c : Dev nD) (t : Fin cfg3.N) (r s : Fin 1024) (P Q : Fin 12288)
    (hP : P.val = win3_2.index t (0 : Fin 2) * 1024 + r.val) (hQ : Q.val = win3_2.index t (1 : Fin 2) * 1024 + s.val) :
    k3_pay1 (F := Ideal) (iblk3 V c 0 t) (iblk3 V c 1 t) (ix2 r s) = decoded (V c main_v28) P Q := by
  refine (pay3_entry _ _ r s).trans ?_
  unfold decoded
  refine congrArg (FloatOps.logistic (F := Ideal) (φ := .f32)) (Finset.sum_congr rfl fun k _ => ?_)
  rw [iblk3_0_entry V c t r k P hP, iblk3_1_entry V c t s k Q hQ]

/-- What point t writes back is block t of the decoded matrix of the latent table as the region finds it. -/
theorem flushed3_eq (c : Dev nD) (t : Fin cfg3.N) :
    (dat3 V c).flushed 2 t = ((cfg3.win 2).blk t).view.read (Elt Ideal) (decodedArray (V c main_v28)) := by
  show (cfg3.win 2).cut (grid3.coords t) ((dat3 V c).after 2 t) = _
  rw [after3_2]
  unfold out3_2
  rw [View.canon_unit_zero zero_offsets3]
  simp only [View.ld_unit_zero (S := S1024x128) zero_offsets3]
  funext j
  obtain ⟨r, s, rfl⟩ : ∃ (r s : Fin 1024), j = ix2 r s := ⟨j 0, j 1, eq_ix2 (n0 := 1024) (n1 := 1024) j⟩
  show k3_pay1 (F := Ideal) (iblk3 V c 0 t) (iblk3 V c 1 t) (ix2 r s)
    = decodedArray (V c main_v28) (((cfg3.win 2).blk t).view.emb (ix2 r s))
  refine block_entry3 V c t r s _ _ ?_ ?_
  · show win3_2.index t (0 : Fin 2) * 1024 + 1 * r.val = win3_2.index t (0 : Fin 2) * 1024 + r.val; omega
  · show win3_2.index t (1 : Fin 2) * 1024 + 1 * s.val = win3_2.index t (1 : Fin 2) * 1024 + s.val; omega

/-- An index of the result is in point t's block iff each coordinate is in the block's range on its axis. -/
theorem mem_blk3 (t : Fin cfg3.N) (i : S12288x12288.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v43).slice (win3_2.rect t)).set ↔ _
  rw [View.set_slice_whole, Rect.mem_set_unit]
  exact Iff.rfl

/-- Every entry (p, q) of the result is in the block of the point at block (p / 1024, q / 1024), which writes back. -/
theorem covered3 (i : S12288x12288.Idx) :
    ∃ t : Fin cfg3.N, (cfg3.win 2).flush t = true ∧ i ∈ ((cfg3.win 2).blk t).view.set := by
  have hi0 : (i 0).val < 12288 := (i 0).isLt
  have hi1 : (i 1).val < 12288 := (i 1).isLt
  obtain ⟨t, ht⟩ := block_onto3 ⟨(i 0).val / 1024, by omega⟩ ⟨(i 1).val / 1024, by omega⟩
  have q0 : win3_2.index t (0 : Fin 2) = (i 0).val / 1024 := congrFun ht 0
  have q1 : win3_2.index t (1 : Fin 2) = (i 1).val / 1024 := congrFun ht 1
  refine ⟨t, flush3_2 t, ?_⟩
  rw [mem_blk3]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 1024 ≤ (i 1).val ∧ (i 1).val < win3_2.index t (1 : Fin 2) * 1024 + 1024; omega

/-- The result after the region is the decoded matrix of the latent table as the region finds it. -/
theorem final3_array (c : Dev nD) : (dat3 V c).arrAt 2 cfg3.N = decodedArray (V c main_v28) :=
  (dat3 V c).arrAt_eq_of_cover 2 (decodedArray (V c main_v28)) (fun t _ => flushed3_eq V c t) covered3

/-- Entry (p, q) of the result after the region is entry (p, q) of the decoded matrix of the latent table. -/
theorem final3_decoded (c : Dev nD) (p q : Fin 12288) :
    (dat3 V c).arrAt 2 cfg3.N (ix2 p q) = decoded (V c main_v28) p q := by
  rw [final3_array]

/-- Entry (p, q) of the result after the region: the logistic function of the inner product of rows p and q of the
    latent table z the region finds. -/
theorem final3 (c : Dev nD) (z : Vec Ideal S12288x128 .f32) (hz : V c main_v28 = z) (p q : Fin 12288) :
    (dat3 V c).arrAt 2 cfg3.N (ix2 p q)
      = FloatOps.logistic (F := Ideal) (φ := .f32) (∑ k : Fin 128, z (ix2 p k) * z (ix2 q k)) := by
  subst hz
  exact final3_decoded V c p q

end Cert.Bridge

end
-- ==== Proof.KernelValues.lean ====
/-
  What the kernel program's three results are, as extended reals, in terms of the launch arrays.

  The boundaries' contents are followed from the launch: a tiled kernel leaves, in its result array, the matrix product of
  its two operands as the regions find them (each entry the sum over the shared coordinate, in the coordinate's order:
  the host's product of the same tables, entry by entry); a stretch of array operations leaves one message-passing step
  on the product before it; no segment writes an argument, the hidden table is not written after the rectifier, and the
  first latent table is not written after its stretch. So the two latent tables are the reference's steps on the products
  with the second and third weights, and the last kernel, which pairs the rows of the first latent table and applies the
  logistic function, leaves the reference's decoder 1 / (1 + exp (-(Z Zᵀ))) of that table.
-/
import proofs.«150485_j3504693313768_1_alg».proof.Proof.KI.Run
import proofs.«150485_j3504693313768_1_alg».proof.Proof.KernelStretches
import proofs.«150485_j3504693313768_1_alg».proof.Proof.RefForms
import proofs.«150485_j3504693313768_1_alg».proof.Proof.ReferenceEntries
import proofs.«150485_j3504693313768_1_alg».proof.Proof.FinalArray0
import proofs.«150485_j3504693313768_1_alg».proof.Proof.FinalArray1
import proofs.«150485_j3504693313768_1_alg».proof.Proof.FinalArray2
import proofs.«150485_j3504693313768_1_alg».proof.Proof.FinalArray3

noncomputable section

namespace Cert.Bridge

open Cert.KernelIdeal Cert.KernelIdeal.Gen Cert.KernelIdeal.Hand
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

/-! ## The arguments at every boundary -/

abbrev argsL : List (Ref sig .tc) := [main_arg0, main_arg1, main_arg2, main_arg3, main_arg4, main_arg5, main_arg6]

theorem W1_arg (b : Ref sig .tc) (hb : b ∈ argsL) : W1 m c (Proc.devRef .tc b) = m ((c : Thread nD τ).loc b) :=
  W1_keeps m c b ((by decide : ∀ b ∈ argsL, Pipeline.arrRef spec0 2 ≠ b) b hb)
    ((by decide : ∀ b ∈ argsL, (Pipeline.arrRef spec0 0 = b ∨ Pipeline.arrRef spec0 1 = b) ∨ ∀ w, Pipeline.arrRef spec0 w ≠ b) b hb)
theorem W2_arg (b : Ref sig .tc) (hb : b ∈ argsL) : W2 m c (Proc.devRef .tc b) = m ((c : Thread nD τ).loc b) :=
  (after_of_writes_sub hostOps1 _ hostOps1_writes (r := b) ((by decide : ∀ b ∈ argsL, b ∉ hostOps1_W) b hb)).trans (W1_arg m c b hb)
theorem W3_arg (b : Ref sig .tc) (hb : b ∈ argsL) : W3 m c (Proc.devRef .tc b) = m ((c : Thread nD τ).loc b) :=
  (after_of_writes_sub hostOps1_1 _ hostOps1_1_writes (r := b) ((by decide : ∀ b ∈ argsL, b ∉ hostOps1_1_W) b hb)).trans (W2_arg m c b hb)
theorem W4_arg (b : Ref sig .tc) (hb : b ∈ argsL) : W4 m c (Proc.devRef .tc b) = m ((c : Thread nD τ).loc b) :=
  (W4_keeps m c b ((by decide : ∀ b ∈ argsL, Pipeline.arrRef spec1 2 ≠ b) b hb)
    ((by decide : ∀ b ∈ argsL, (Pipeline.arrRef spec1 0 = b ∨ Pipeline.arrRef spec1 1 = b) ∨ ∀ w, Pipeline.arrRef spec1 w ≠ b) b hb)).trans (W3_arg m c b hb)
theorem W5_arg (b : Ref sig .tc) (hb : b ∈ argsL) : W5 m c (Proc.devRef .tc b) = m ((c : Thread nD τ).loc b) :=
  (after_of_writes_sub hostOps2 _ hostOps2_writes (r := b) ((by decide : ∀ b ∈ argsL, b ∉ hostOps2_W) b hb)).trans (W4_arg m c b hb)
theorem W6_arg (b : Ref sig .tc) (hb : b ∈ argsL) : W6 m c (Proc.devRef .tc b) = m ((c : Thread nD τ).loc b) :=
  (W6_keeps m c b ((by decide : ∀ b ∈ argsL, Pipeline.arrRef spec2 2 ≠ b) b hb)
    ((by decide : ∀ b ∈ argsL, (Pipeline.arrRef spec2 0 = b ∨ Pipeline.arrRef spec2 1 = b) ∨ ∀ w, Pipeline.arrRef spec2 w ≠ b) b hb)).trans (W5_arg m c b hb)

/-! ## The tables at the boundaries -/

/-- The first kernel leaves the product of the features with the first weight. -/
theorem v0_eq : W1 m c (Proc.devRef .tc main_v0)
    = prod0 (m ((c : Thread nD τ).loc main_arg0)) (m ((c : Thread nD τ).loc main_arg4)) := by
  refine (W1_arr m c 2).trans ?_
  funext j
  obtain ⟨p, q, rfl⟩ : ∃ (p : Fin 12288) (q : Fin 256), j = ix2 p q := ⟨j 0, j 1, eq_ix2 j⟩
  exact (final0 (V0 m) c _ _ rfl rfl p q).trans (refdot0_entry _ _ p q).symm

/-- The hidden table, after the first stretch and the rectifier. -/
theorem v14_eq : W3 m c (Proc.devRef .tc main_v14) = (hidden (m ((c : Thread nD τ).loc main_arg0)) (m ((c : Thread nD τ).loc main_arg1)) (m ((c : Thread nD τ).loc main_arg2)) (m ((c : Thread nD τ).loc main_arg3)) (m ((c : Thread nD τ).loc main_arg4))) := by
  refine (rectify (W2 m c)).trans (congrArg relu256 ((stretch1 (W1 m c)).trans ?_))
  rw [W1_arg m c main_arg1 (by decide), W1_arg m c main_arg2 (by decide), W1_arg m c main_arg3 (by decide), v0_eq m c]
  rfl

/-- The second kernel leaves the product of the hidden table with the second weight. -/
theorem v15_eq : W4 m c (Proc.devRef .tc main_v15)
    = prod1 (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W4_arr m c 2).trans ?_
  funext j
  obtain ⟨p, q, rfl⟩ : ∃ (p : Fin 12288) (q : Fin 128), j = ix2 p q := ⟨j 0, j 1, eq_ix2 j⟩
  exact (final1 (V3 m) c _ _ (v14_eq m c).symm (W3_arg m c main_arg5 (by decide)).symm p q).trans (refdot1_entry _ _ p q).symm

/-- The first latent table, after the second stretch. -/
theorem v28_eq : W5 m c (Proc.devRef .tc main_v28) = (latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (stretch2 (W4 m c)).trans ?_
  rw [W4_arg m c main_arg1 (by decide), W4_arg m c main_arg2 (by decide), W4_arg m c main_arg3 (by decide), v15_eq m c]
  rfl

/-- The hidden table is still there when the third kernel starts. -/
theorem v14_at5 : W5 m c (Proc.devRef .tc main_v14) = (hidden (m ((c : Thread nD τ).loc main_arg0)) (m ((c : Thread nD τ).loc main_arg1)) (m ((c : Thread nD τ).loc main_arg2)) (m ((c : Thread nD τ).loc main_arg3)) (m ((c : Thread nD τ).loc main_arg4))) :=
  (after_of_writes_sub hostOps2 _ hostOps2_writes (r := main_v14) (by decide)).trans
    ((W4_keeps m c main_v14 (by decide) (by decide)).trans (v14_eq m c))

/-- The third kernel leaves the product of the hidden table with the third weight. -/
theorem v29_eq : W6 m c (Proc.devRef .tc main_v29)
    = prod1 (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg6)) := by
  refine (W6_arr m c 2).trans ?_
  funext j
  obtain ⟨p, q, rfl⟩ : ∃ (p : Fin 12288) (q : Fin 128), j = ix2 p q := ⟨j 0, j 1, eq_ix2 j⟩
  exact (final2 (V5 m) c _ _ (v14_at5 m c).symm (W5_arg m c main_arg6 (by decide)).symm p q).trans (refdot1_entry _ _ p q).symm

/-- The second latent table, after the third stretch. -/
theorem v42_eq : W7 m c (Proc.devRef .tc main_v42) = (latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) := by
  refine (stretch3 (W6 m c)).trans ?_
  rw [W6_arg m c main_arg1 (by decide), W6_arg m c main_arg2 (by decide), W6_arg m c main_arg3 (by decide), v29_eq m c]
  rfl

/-- The first latent table is still there when the decoder starts. -/
theorem v28_at7 : W7 m c (Proc.devRef .tc main_v28) = (latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (after_of_writes_sub hostOps3 _ hostOps3_writes (r := main_v28) (by decide)).trans
    ((W6_keeps m c main_v28 (by decide) (by decide)).trans (v28_eq m c))

/-- The decoder leaves the reference's decoder of the first latent table. -/
theorem v43_eq : W8 m c (Proc.devRef .tc main_v43) = decode (latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W8_res m c).trans ?_
  funext j
  obtain ⟨p, q, rfl⟩ : ∃ (p : Fin 12288) (q : Fin 12288), j = ix2 p q := ⟨j 0, j 1, eq_ix2 j⟩
  exact (final3 (V7 m) c _ (v28_at7 m c) p q).trans (refdecode_entry _ p q).symm

/-! ## The run, read -/

/-- Every weakly fair execution of the kernel program terminates with the reconstruction at the decoder of the first
    latent table, the two latent tables at the steps' values, and the arguments unchanged. -/
theorem ker_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = decode (latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_v28) = (latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_v42) = (latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v43 (by decide)).trans (v43_eq m c),
      (h c main_v28 (by decide)).trans ((W8_of_ne m c main_v28 (by decide)).trans (v28_at7 m c)),
      (h c main_v42 (by decide)).trans ((W8_of_ne m c main_v42 (by decide)).trans (v42_eq m c)),
      (h c main_arg0 (by decide)).trans (W8_main_arg0 m c),
      (h c main_arg1 (by decide)).trans (W8_main_arg1 m c),
      (h c main_arg2 (by decide)).trans (W8_main_arg2 m c),
      (h c main_arg3 (by decide)).trans (W8_main_arg3 m c),
      (h c main_arg4 (by decide)).trans (W8_main_arg4 m c),
      (h c main_arg5 (by decide)).trans (W8_main_arg5 m c),
      (h c main_arg6 (by decide)).trans (W8_main_arg6 m c)⟩)
    (run_all m ρ)

end Cert.Bridge

end
-- ==== Proof.RefRun.lean ====
/-
  The reference's run, its three results named: the two latent tables are one message-passing step on the hidden table
  times the second and the third weight, and the reconstruction is the decoder of the first latent table. The generated
  run states each result as the composed term of the operations; these are the same terms, folded into the named steps.
-/
import proofs.«150485_j3504693313768_1_alg».proof.Proof.Gen.ReferenceIdeal.Run
import proofs.«150485_j3504693313768_1_alg».proof.Proof.RefForms

noncomputable section

namespace Cert.Bridge

open Cert.ReferenceIdeal Cert.ReferenceIdeal.Gen Idealize.ShloMosaic Idealize.ShloMosaic.TcCoe Idealize.SL.Sem

variable {F : FTy → Type} [FloatOps F]

set_option maxRecDepth 8192 in
/-- Every weakly fair execution of the reference terminates with the reconstruction at the decoder of the first latent
    table, the two latent tables at the steps' values, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = decode (latent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v28) = latent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v42) = latent (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by unfold Cert.ReferenceIdeal.Value.res_main_v50; rfl), (h c).2.1.trans rfl, (h c).2.2.1.trans rfl, (h c).2.2.2⟩)
    (Cert.ReferenceIdeal.Value.run m ρ)

end Cert.Bridge

end
-- ==== Proof.lean ====
/-
  The kernel program and its reference compute the same three arrays over the extended reals.

  Both are a two-layer graph autoencoder. With X the node features, a message-passing step P (every edge takes the row of
  its end node, scales it by the edge's value, and the scaled rows are summed by start node) and weights W₁, W₂, W₃:
      H = max (P (X W₁), 0),   M = P (H W₂),   V = P (H W₃),   A = 1 / (1 + exp (-(M Mᵀ))).
  The reference takes the three matrix products and M Mᵀ with the host's product; the kernel program takes them with four
  tiled kernels — X W₁, H W₂ and H W₃ in row blocks of 1536, and the logistic of the inner products of row blocks of M in
  1024 × 1024 tiles — and applies the very same array operations for P and for the rectifier in between.

  Over the extended reals a change of float format is the identity and a tiled product into a zero accumulator is, entry by
  entry, the same sum over the shared coordinate in the same order as the host's product; the kernel's logistic is by
  definition the quotient 1 / (1 + exp (-x)) that the reference spells out, at every extended real. So no algebraic law is
  needed beyond reading both sides at an entry, and the finiteness of the inputs is never used.

  Each program's frame (it runs to the end, faults nowhere, and leaves its arguments unchanged) comes from its run: the
  kernel program's as eight segments — four kernel regions among stretches of array operations — whose buffer contents are
  followed from the launch memory, at the word-level instance and at the extended reals alike; the reference's from the run
  of its operations. The idealized kernel program is the printed program read at the extended reals: no rewrite was applied.
-/
import proofs.«150485_j3504693313768_1_alg».proof.Defs
import proofs.«150485_j3504693313768_1_alg».proof.Proof.Gen.Kernel
import proofs.«150485_j3504693313768_1_alg».proof.Proof.Gen.KernelIdeal
import proofs.«150485_j3504693313768_1_alg».proof.Proof.Gen.ReferenceIdeal
import proofs.«150485_j3504693313768_1_alg».proof.Proof.Gen.Pre_finite_inputs
import proofs.«150485_j3504693313768_1_alg».proof.Proof.Gen.ReferenceIdeal.Run
import proofs.«150485_j3504693313768_1_alg».proof.Proof.Gen.ReferenceIdeal.Read
import proofs.«150485_j3504693313768_1_alg».proof.Proof.K.Run
import proofs.«150485_j3504693313768_1_alg».proof.Proof.KI.Run
import proofs.«150485_j3504693313768_1_alg».proof.Proof.KernelValues
import proofs.«150485_j3504693313768_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Hand.frame m ρ

/-- So does the kernel program read at the extended reals. -/
theorem frame_kernelIdeal : Cert.frame_KernelIdeal := fun m ρ _ => Cert.KernelIdeal.Hand.frame m ρ

/-- The reference's frame is its run with the results dropped. -/
theorem frame_referenceIdeal : Cert.frame_ReferenceIdeal := fun m ρ _ =>
  (θ_run Cert.ReferenceIdeal.defs _ _).mono (fun _ h c => (h c).2.2.2) (Cert.Bridge.ref_run (F := Ideal) m ρ)

/-- The ideal pass rewrote nothing. -/
theorem preserves : Cert.preserves_Kernel_KernelIdeal := trivial

/-- From memories agreeing on the arguments both programs end with the reconstruction at the decoder of the first latent
    table and the two latent tables at the message-passing steps on the products of the hidden table with the second and
    the third weight. -/
theorem algebraic : Cert.algebraic_KernelIdeal_ReferenceIdeal := by
  intro m ρ m' ρ' _ hagree
  refine ⟨fun c => Cert.Bridge.decode (Cert.Bridge.latent (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), fun c => (Cert.Bridge.latent (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), fun c => (Cert.Bridge.latent (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))),
    Cert.Bridge.ker_run m ρ, ?_⟩
  refine (θ_run Cert.ReferenceIdeal.defs _ _).mono (fun _ h c => ?_) (Cert.Bridge.ref_run (F := Ideal) m' ρ')
  obtain ⟨e0, e1, e2, e3, e4, e5, e6⟩ := hagree c
  obtain ⟨h0, h1, h2, hargs⟩ := h c
  rw [e0, e1, e2, e3, e4, e5] at h0 h1
  rw [e0, e1, e2, e3, e4, e6] at h2
  exact ⟨h0, h1, h2, hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
